-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x250 : Shape := ⟨2, ![2048, 250]⟩
abbrev S250 : Shape := ⟨1, ![250]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x250 : S_.BroadcastsInDim S2048x250 (![] : Fin 0 → Fin S2048x250.rank)
  reducesTo_S2048x250_S_d0_1 : S2048x250.ReducesTo [0, 1] S_
  bcast_S_S250 : S_.BroadcastsInDim S250 (![] : Fin 0 → Fin S250.rank)
  reducesTo_S250_S_d0 : S250.ReducesTo [0] S_

variable [Facts]

def fn {F : FTy → Type} [FloatOps F] (main_arg0 : FVec F S1024x2048 .f32) (main_arg1 : FVec F S2048x250 .f32) (main_arg2 : FVec F S250 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x250 .f32 := Host.absf main_arg1
  let main_cst_0 : FVec F S_ .f32 := constant S_ .f32 0x7F800000#32
  let main_v5 : FVec F S2048x250 .f32 := broadcastInDim S2048x250 ![] bcast_S_S2048x250 main_cst_0
  let main_v6 : IVec S2048x250 1 := cmpf .olt main_v4 main_v5
  let main_c_1 : IVec S_ 1 := constantI S_ 1 1#1
  let main_v7 : IVec S_ 1 := (fun x v => Host.reduce IntOp.andi x v reducesTo_S2048x250_S_d0_1 h_S_) main_v6 main_c_1
  let main_v8 : IVec S_ 1 := andi main_v3 main_v7
  let main_v9 : FVec F S250 .f32 := Host.absf main_arg2
  let main_cst_2 : FVec F S_ .f32 := constant S_ .f32 0x7F800000#32
  let main_v10 : FVec F S250 .f32 := broadcastInDim S250 ![] bcast_S_S250 main_cst_2
  let main_v11 : IVec S250 1 := cmpf .olt main_v9 main_v10
  let main_c_3 : IVec S_ 1 := constantI S_ 1 1#1
  let main_v12 : IVec S_ 1 := (fun x v => Host.reduce IntOp.andi x v reducesTo_S250_S_d0 h_S_) main_v11 main_c_3
  let main_v13 : IVec S_ 1 := andi main_v8 main_v12
  main_v13
-- ==== Kernel.lean ====
abbrev S1024x2048 : Shape := ⟨2, ![1024, 2048]⟩
abbrev S2048x250 : Shape := ⟨2, ![2048, 250]⟩
abbrev S250 : Shape := ⟨1, ![250]⟩
abbrev S1024x250 : Shape := ⟨2, ![1024, 250]⟩
abbrev S256x2048 : Shape := ⟨2, ![256, 2048]⟩
abbrev S256x250 : Shape := ⟨2, ![256, 250]⟩
abbrev S1x250 : Shape := ⟨2, ![1, 250]⟩
abbrev S1024x50x5 : Shape := ⟨3, ![1024, 50, 5]⟩
abbrev S5x1024x50 : Shape := ⟨3, ![5, 1024, 50]⟩
abbrev S5x50x1024 : Shape := ⟨3, ![5, 50, 1024]⟩
abbrev S1024x50 : Shape := ⟨2, ![1024, 50]⟩
abbrev S5x128x50 : Shape := ⟨3, ![5, 128, 50]⟩
abbrev S5x50x128 : Shape := ⟨3, ![5, 50, 128]⟩
abbrev S128x50 : Shape := ⟨2, ![128, 50]⟩
abbrev S1x128x50 : Shape := ⟨3, ![1, 128, 50]⟩
abbrev S128x50x1 : Shape := ⟨3, ![128, 50, 1]⟩
abbrev S1x50x128 : Shape := ⟨3, ![1, 50, 128]⟩
abbrev S50x128 : Shape := ⟨2, ![50, 128]⟩
abbrev S128x50x128 : Shape := ⟨3, ![128, 50, 128]⟩
abbrev S128x128 : Shape := ⟨2, ![128, 128]⟩
abbrev S128x1x128 : Shape := ⟨3, ![128, 1, 128]⟩
abbrev S1024x2098 : Shape := ⟨2, ![1024, 2098]⟩

abbrev nBuf : Space → Nat
  | .hbm => 9
  | .vmem => 13
  | .smem => 0
  | _ => 0

abbrev bufTy : (tb : Table) → Fin (tcTables nBuf tb) → BufTy
  | .hbm, ⟨0, _⟩ => ⟨S1024x2048, .f32⟩
  | .hbm, ⟨1, _⟩ => ⟨S2048x250, .f32⟩
  | .hbm, ⟨2, _⟩ => ⟨S250, .f32⟩
  | .hbm, ⟨3, _⟩ => ⟨S1024x250, .f32⟩
  | .hbm, ⟨4, _⟩ => ⟨S1024x50x5, .f32⟩
  | .hbm, ⟨5, _⟩ => ⟨S5x1024x50, .f32⟩
  | .hbm, ⟨6, _⟩ => ⟨S5x50x1024, .f32⟩
  | .hbm, ⟨7, _⟩ => ⟨S1024x50, .f32⟩
  | .hbm, ⟨8, _⟩ => ⟨S1024x2098, .f32⟩
  | .local _ .vmem, ⟨0, _⟩ => ⟨S256x2048, .f32⟩
  | .local _ .vmem, ⟨1, _⟩ => ⟨S256x2048, .f32⟩
  | .local _ .vmem, ⟨2, _⟩ => ⟨S2048x250, .f32⟩
  | .local _ .vmem, ⟨3, _⟩ => ⟨S250, .f32⟩
  | .local _ .vmem, ⟨4, _⟩ => ⟨S256x250, .f32⟩
  | .local _ .vmem, ⟨5, _⟩ => ⟨S256x250, .f32⟩
  | .local _ .vmem, ⟨6, _⟩ => ⟨S5x128x50, .f32⟩
  | .local _ .vmem, ⟨7, _⟩ => ⟨S5x128x50, .f32⟩
  | .local _ .vmem, ⟨8, _⟩ => ⟨S5x50x128, .f32⟩
  | .local _ .vmem, ⟨9, _⟩ => ⟨S5x50x128, .f32⟩
  | .local _ .vmem, ⟨10, _⟩ => ⟨S128x50, .f32⟩
  | .local _ .vmem, ⟨11, _⟩ => ⟨S128x50, .f32⟩
  | .local _ .vmem, ⟨12, _⟩ => ⟨S128x50, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S250 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x250 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v80 : BitVec 1 := Scalar.cmpi .eq arg1 c7_i32
  let v81 : BitVec 32 := Scalar.extui v80
  let c0_i32_32 : BitVec 32 := 0#32
  let v82 : BitVec 1 := Scalar.cmpi .ne v81 c0_i32_32
  v82

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S5x128x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5x50x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x250_S2048x250_0_0 : ∀ a, (![0, 0] : Fin 2 → Nat) a + S2048x250.size a ≤ S2048x250.size a
  h_S2048x250 : 0 < S2048x250.numel
  inb_S250_S250_0 : ∀ a, (![0] : Fin 1 → Nat) a + S250.size a ≤ S250.size a
  h_S250 : 0 < S250.numel
  shapeCasts_S250_S1x250 : S250.ShapeCasts S1x250
  broadcasts_S1x250_S256x250 : S1x250.Broadcasts S256x250
  inb_S256x250_S256x250_0_0 : ∀ a, (![0, 0] : Fin 2 → Nat) a + S256x250.size a ≤ S256x250.size a
  h_S256x250 : 0 < S256x250.numel
  shapeCasts_S1024x250_S1024x50x5 : S1024x250.ShapeCasts S1024x50x5
  transposes_S1024x50x5_S5x1024x50_2_0_1 : S1024x50x5.Transposes [2, 0, 1] S5x1024x50
  transposes_S1024x50x5_S5x50x1024_2_1_0 : S1024x50x5.Transposes [2, 1, 0] S5x50x1024
  inb_S128x50_S128x50_0_0 : ∀ a, (![0, 0] : Fin 2 → Nat) a + S128x50.size a ≤ S128x50.size a
  h_S128x50 : 0 < S128x50.numel
  shapeCasts_S128x50_S128x50 : S128x50.ShapeCasts S128x50
  inb_S5x128x50_S1x128x50_0_0_0 : ∀ a, (![0, 0, 0] : Fin 3 → Nat) a + S1x128x50.size a ≤ S5x128x50.size a
  h_S1x128x50 : 0 < S1x128x50.numel
  shapeCasts_S1x128x50_S128x50 : S1x128x50.ShapeCasts S128x50
  shapeCasts_S128x50_S128x50x1 : S128x50.ShapeCasts S128x50x1
  inb_S5x50x128_S1x50x128_0_0_0 : ∀ a, (![0, 0, 0] : Fin 3 → Nat) a + S1x50x128.size a ≤ S5x50x128.size a
  h_S1x50x128 : 0 < S1x50x128.numel
  shapeCasts_S1x50x128_S50x128 : S1x50x128.ShapeCasts S50x128
  shapeCasts_S50x128_S1x50x128 : S50x128.ShapeCasts S1x50x128
  broadcasts_S128x50x1_S128x50x128 : S128x50x1.Broadcasts S128x50x128
  broadcasts_S1x50x128_S128x50x128 : S1x50x128.Broadcasts S128x50x128
  inb_S5x128x50_S1x128x50_1_0_0 : ∀ a, (![1, 0, 0] : Fin 3 → Nat) a + S1x128x50.size a ≤ S5x128x50.size a
  inb_S5x50x128_S1x50x128_1_0_0 : ∀ a, (![1, 0, 0] : Fin 3 → Nat) a + S1x50x128.size a ≤ S5x50x128.size a
  inb_S5x128x50_S1x128x50_2_0_0 : ∀ a, (![2, 0, 0] : Fin 3 → Nat) a + S1x128x50.size a ≤ S5x128x50.size a
  inb_S5x50x128_S1x50x128_2_0_0 : ∀ a, (![2, 0, 0] : Fin 3 → Nat) a + S1x50x128.size a ≤ S5x50x128.size a
  inb_S5x128x50_S1x128x50_3_0_0 : ∀ a, (![3, 0, 0] : Fin 3 → Nat) a + S1x128x50.size a ≤ S5x128x50.size a
  inb_S5x50x128_S1x50x128_3_0_0 : ∀ a, (![3, 0, 0] : Fin 3 → Nat) a + S1x50x128.size a ≤ S5x50x128.size a
  inb_S5x128x50_S1x128x50_4_0_0 : ∀ a, (![4, 0, 0] : Fin 3 → Nat) a + S1x128x50.size a ≤ S5x128x50.size a
  inb_S5x50x128_S1x50x128_4_0_0 : ∀ a, (![4, 0, 0] : Fin 3 → Nat) a + S1x50x128.size a ≤ S5x50x128.size a
  iota_S128x128_d0_w32 : S128x128.Iotas .tc 32 [0]
  iota_S128x128_d1_w32 : S128x128.Iotas .tc 32 [1]
  natLt_1_32 : 1 < 32
  shapeCasts_S128x128_S128x1x128 : S128x128.ShapeCasts S128x1x128
  broadcasts_S128x1x128_S128x50x128 : S128x1x128.Broadcasts S128x50x128
  reduces_S128x50x128_S128x50 : S128x50x128.Reduces [2] S128x50
  concatenates_S1024x2048_S1024x50_S1024x2098_d1 : Shape.Concatenates [S1024x2048, S1024x50] S1024x2098 1
  dot_S256x2048_S2048x250_S256x250_1_0_0_1_n_n_wf : DotDims.WF S256x2048 S2048x250 S256x250 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x250.size a ≤ S2048x250.size a
  hwx0_1 : ∀ i : grid0.Coords, EltTy.bits .f32 = 32 ∨ (Rect.block (s := S2048x250) S2048x250.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S250.size a ≤ S250.size a
  hwx0_2 : ∀ i : grid0.Coords, EltTy.bits .f32 = 32 ∨ (Rect.block (s := S250) S250.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x250.size a ≤ S1024x250.size a
  hwx0_3 : ∀ i : grid0.Coords, EltTy.bits .f32 = 32 ∨ (Rect.block (s := S1024x250) S256x250.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x128x50.size a ≤ S5x1024x50.size a
  hwx1_0 : ∀ i : grid1.Coords, EltTy.bits .f32 = 32 ∨ (Rect.block (s := S5x1024x50) S5x128x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5x50x128.size a ≤ S5x50x1024.size a
  hwx1_1 : ∀ i : grid1.Coords, EltTy.bits .f32 = 32 ∨ (Rect.block (s := S5x50x1024) S5x50x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x50.size a ≤ S1024x50.size a
  hwx1_2 : ∀ i : grid1.Coords, EltTy.bits .f32 = 32 ∨ (Rect.block (s := S1024x50) S128x50.size (cc1_transform_2 i) (hinb1_2 i)).WholeWords (EltTy.packing .f32)

variable [Facts₀]

def dot_S256x2048_S2048x250_S256x250_1_0_0_1_n_n : DotDims S256x2048 S2048x250 S256x250 where
  lhsContracting := [1]
  rhsContracting := [0]
  lhsNonContracting := [0]
  rhsNonContracting := [1]
  lhsBatch := []
  rhsBatch := []
  wf := dot_S256x2048_S2048x250_S256x250_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x250.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S250.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x250.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S5x128x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S5x50x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x50.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1024x2048 : Shape := ⟨2, ![1024, 2048]⟩
abbrev S2048x250 : Shape := ⟨2, ![2048, 250]⟩
abbrev S250 : Shape := ⟨1, ![250]⟩
abbrev S1024x250 : Shape := ⟨2, ![1024, 250]⟩
abbrev S1x250 : Shape := ⟨2, ![1, 250]⟩
abbrev S1024x50x5 : Shape := ⟨3, ![1024, 50, 5]⟩
abbrev S1024x50x5x1 : Shape := ⟨4, ![1024, 50, 5, 1]⟩
abbrev S50x5x1024 : Shape := ⟨3, ![50, 5, 1024]⟩
abbrev S1x50x5x1024 : Shape := ⟨4, ![1, 50, 5, 1024]⟩
abbrev S1024x50x5x1024 : Shape := ⟨4, ![1024, 50, 5, 1024]⟩
abbrev S1024x1024 : Shape := ⟨2, ![1024, 1024]⟩
abbrev S_ : Shape := ⟨0, ![]⟩
abbrev S1024x1x1024 : Shape := ⟨3, ![1024, 1, 1024]⟩
abbrev S1024x50x1024 : Shape := ⟨3, ![1024, 50, 1024]⟩
abbrev S1024x50 : Shape := ⟨2, ![1024, 50]⟩
abbrev S1024x2098 : Shape := ⟨2, ![1024, 2098]⟩

abbrev nBuf : Space → Nat
  | .hbm => 32
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x250, .f32⟩
  | .hbm, ⟨2, _⟩ => ⟨S250, .f32⟩
  | .hbm, ⟨3, _⟩ => ⟨S1024x250, .f32⟩
  | .hbm, ⟨4, _⟩ => ⟨S1x250, .f32⟩
  | .hbm, ⟨5, _⟩ => ⟨S1024x250, .f32⟩
  | .hbm, ⟨6, _⟩ => ⟨S1024x250, .f32⟩
  | .hbm, ⟨7, _⟩ => ⟨S1024x50x5, .f32⟩
  | .hbm, ⟨8, _⟩ => ⟨S1024x50x5x1, .f32⟩
  | .hbm, ⟨9, _⟩ => ⟨S50x5x1024, .f32⟩
  | .hbm, ⟨10, _⟩ => ⟨S1x50x5x1024, .f32⟩
  | .hbm, ⟨11, _⟩ => ⟨S1024x50x5x1024, .f32⟩
  | .hbm, ⟨12, _⟩ => ⟨S1024x50x5x1024, .f32⟩
  | .hbm, ⟨13, _⟩ => ⟨S1024x50x5x1024, .f32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i32⟩
  | .hbm, ⟨19, _⟩ => ⟨S1024x1024, .i1⟩
  | .hbm, ⟨20, _⟩ => ⟨S1024x1024, .f32⟩
  | .hbm, ⟨21, _⟩ => ⟨S1024x1x1024, .f32⟩
  | .hbm, ⟨22, _⟩ => ⟨S1024x50x5x1024, .f32⟩
  | .hbm, ⟨23, _⟩ => ⟨S_, .f32⟩
  | .hbm, ⟨24, _⟩ => ⟨S1024x50x1024, .f32⟩
  | .hbm, ⟨25, _⟩ => ⟨S1024x50x1024, .f32⟩
  | .hbm, ⟨26, _⟩ => ⟨S1024x50x1024, .f32⟩
  | .hbm, ⟨27, _⟩ => ⟨S1024x50x1024, .f32⟩
  | .hbm, ⟨28, _⟩ => ⟨S1024x50x1024, .f32⟩
  | .hbm, ⟨29, _⟩ => ⟨S_, .f32⟩
  | .hbm, ⟨30, _⟩ => ⟨S1024x50, .f32⟩
  | .hbm, ⟨31, _⟩ => ⟨S1024x2098, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]

class Facts₀ : Prop where
  bcast_S250_S1x250_1 : S250.BroadcastsInDim S1x250 (![1] : Fin 1 → Fin S1x250.rank)
  bcast_S1x250_S1024x250_0_1 : S1x250.BroadcastsInDim S1024x250 (![0, 1] : Fin 2 → Fin S1024x250.rank)
  shapeCasts_S1024x250_S1024x50x5 : S1024x250.ShapeCasts S1024x50x5
  bcast_S1024x50x5_S1024x50x5x1_0_1_2 : S1024x50x5.BroadcastsInDim S1024x50x5x1 (![0, 1, 2] : Fin 3 → Fin S1024x50x5x1.rank)
  transposes_S1024x50x5_S50x5x1024_1_2_0 : S1024x50x5.Transposes [1, 2, 0] S50x5x1024
  bcast_S50x5x1024_S1x50x5x1024_1_2_3 : S50x5x1024.BroadcastsInDim S1x50x5x1024 (![1, 2, 3] : Fin 3 → Fin S1x50x5x1024.rank)
  bcast_S1024x50x5x1_S1024x50x5x1024_0_1_2_3 : S1024x50x5x1.BroadcastsInDim S1024x50x5x1024 (![0, 1, 2, 3] : Fin 4 → Fin S1024x50x5x1024.rank)
  bcast_S1x50x5x1024_S1024x50x5x1024_0_1_2_3 : S1x50x5x1024.BroadcastsInDim S1024x50x5x1024 (![0, 1, 2, 3] : Fin 4 → Fin S1024x50x5x1024.rank)
  bcast_S_S1024x1024 : S_.BroadcastsInDim S1024x1024 (![] : Fin 0 → Fin S1024x1024.rank)
  bcast_S1024x1024_S1024x1x1024_0_2 : S1024x1024.BroadcastsInDim S1024x1x1024 (![0, 2] : Fin 2 → Fin S1024x1x1024.rank)
  reducesTo_S1024x50x5x1024_S1024x50x1024_d2 : S1024x50x5x1024.ReducesTo [2] S1024x50x1024
  h_S_ : 0 < S_.numel
  bcast_S1024x1x1024_S1024x50x1024_0_1_2 : S1024x1x1024.BroadcastsInDim S1024x50x1024 (![0, 1, 2] : Fin 3 → Fin S1024x50x1024.rank)
  reducesTo_S1024x50x1024_S1024x50_d2 : S1024x50x1024.ReducesTo [2] S1024x50
  concatenates_S1024x2048_S1024x50_S1024x2098_d1 : Shape.Concatenates [S1024x2048, S1024x50] S1024x2098 1
  dot_S1024x2048_S2048x250_S1024x250_1_0_0_1_n_n_wf : DotDims.WF S1024x2048 S2048x250 S1024x250 [1] [0] [0] [1] [] []

variable [Facts₀]

def dot_S1024x2048_S2048x250_S1024x250_1_0_0_1_n_n : DotDims S1024x2048 S2048x250 S1024x250 where
  lhsContracting := [1]
  rhsContracting := [0]
  lhsNonContracting := [0]
  rhsNonContracting := [1]
  lhsBatch := []
  rhsBatch := []
  wf := dot_S1024x2048_S2048x250_S1024x250_1_0_0_1_n_n_wf

class Facts : Prop extends Facts₀ where

variable [Facts]
-- ==== Proof.Region0I.lean ====
/-
  The first kernel region: act = x·W + bias, four row blocks of 256 rows.

  At a grid point t the body reads the point's block of x (rows 256 t … 256 t + 255, all 2048 columns), the whole of W
  and the whole bias, and stores into the output window's buffer the product of the two blocks plus the bias row
  broadcast down the 256 rows. Nothing is kept between points. The proof data therefore say: each input window's
  buffer holds its block at every point, and the output window's buffer holds, after the body, the one stored
  piece read back (`rowBlock`) — a function of the three input blocks alone.
-/
import proofs.«157004_j87720412053850_1_alg».proof.Proof.Gen.KernelIdeal.Launch
import proofs.«157004_j87720412053850_1_alg».proof.Proof.Gen.KernelIdeal.Skeleton
import proofs.«157004_j87720412053850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window w's block of its array at point t, the arrays as the region finds them. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the point fetched it or not: where it is not
    fetched the block index has not moved since the last fetch. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rX : Rect S256x2048 := Rect.unit (s := S256x2048) ![0, 0] S256x2048.size inb_S256x2048_S256x2048_0_0
abbrev rW : Rect S2048x250 := Rect.unit (s := S2048x250) ![0, 0] S2048x250.size inb_S2048x250_S2048x250_0_0
abbrev rB : Rect S250 := Rect.unit (s := S250) ![0] S250.size inb_S250_S250_0
abbrev rO : Rect S256x250 := Rect.unit (s := S256x250) ![0, 0] S256x250.size inb_S256x250_S256x250_0_0

/-- What the body leaves in the output window's buffer: its one store, read back. -/
def rowBlock (x0 : Vec F S256x2048 .f32) (x1 : Vec F S2048x250 .f32) (x2 : Vec F S250 .f32) : Vec F S256x250 .f32 :=
  View.canon [⟨rO, k0_pay1 (View.ld x0 rX) (View.ld x1 rW) (View.ld x2 rB)⟩]

/-- The store is through the whole buffer, so it covers it. -/
theorem rowBlock_cover (p0 : Vec F S256x250 .f32) (y : S256x250.Idx) :
    ∃ pc ∈ ([⟨rO, p0⟩] : List (View.Piece (Elt F) S256x250 .f32)), y ∈ pc.1.set :=
  View.cover_of_tiled [⟨rO, p0⟩] S256x250.size (by rfl) y

set_option maxHeartbeats 1000000 in
/-- The body on whole buffers holding x0, x1, x2 and anything in the output's: it ends with the inputs as they were
    and the output's buffer at `rowBlock x0 x1 x2`. -/
theorem sound_kernel0 (c : Dev nD) (E : Set ℕ) (i : grid0.Coords)
    (arg1 : Memref sig .tc .vmem S256x2048 .f32) (harg1 : arg1.IsWhole) (arg2 : Memref sig .tc .vmem S2048x250 .f32) (harg2 : arg2.IsWhole)
    (arg3 : Memref sig .tc .vmem S250 .f32) (harg3 : arg3.IsWhole) (arg4 : Memref sig .tc .vmem S256x250 .f32) (harg4 : arg4.IsWhole)
    (x0 : Vec F S256x2048 .f32) (x1 : Vec F S2048x250 .f32) (x2 : Vec F S250 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (rowBlock x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (rowBlock_cover _)

/-- The proof data of the first region on core c: the arrays as the region finds them; after the body at point t the
    inputs' buffers at their blocks and the output's at `rowBlock` of them; the scoped rest and the generator register
    pass through untouched; nothing is owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => rowBlock (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = rowBlock (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.Region1I.lean ====
/-
  The second kernel region: the pairwise features, a grid of 8 row blocks by 8 column blocks.

  At grid point (ni, j) the body holds rows 128 ni … 128 ni + 127 of the activations (laid out coordinate-major,
  [5, 128, 50]) and columns 128 j … 128 j + 127 of the same activations transposed ([5, 50, 128]). It keeps a
  [128, 50] accumulator in a scratch buffer that outlives the point: at j = 0 the accumulator is zeroed, at every j
  it gains the 128 columns' contributions (`accum`), and at j = 7 it is copied into the output window's buffer,
  which is written back only then. So the body has three control cases (j = 0; 0 < j < 7; j = 7), what the
  accumulator holds after a point is a recursion on the point (`accAt`), and the region's invariant carries the
  accumulator at that contents from one point to the next.
-/
import proofs.«157004_j87720412053850_1_alg».proof.Proof.Gen.KernelIdeal.Launch
import proofs.«157004_j87720412053850_1_alg».proof.Proof.Gen.KernelIdeal.Skeleton
import proofs.«157004_j87720412053850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's two branch conditions as the kernel computes them from the grid coordinates: first column block (j = 0),
    last column block (j = 7). -/
abbrev cond1 (i : grid1.Coords) : Prop := (Scalar.cmpi .ne (Scalar.extui (Scalar.cmpi .eq (BitVec.ofNat 32 (i 1).val) 0#32)) 0#32) = 1#1
abbrev cond2 (i : grid1.Coords) : Prop := k1_cond2 i = 1#1

/-- The rectangles the body loads and stores through: slab d of each input block, the whole accumulator. -/
abbrev rA0 : Rect S5x128x50 := Rect.unit (s := S5x128x50) ![0, 0, 0] S1x128x50.size inb_S5x128x50_S1x128x50_0_0_0
abbrev rA1 : Rect S5x128x50 := Rect.unit (s := S5x128x50) ![1, 0, 0] S1x128x50.size inb_S5x128x50_S1x128x50_1_0_0
abbrev rA2 : Rect S5x128x50 := Rect.unit (s := S5x128x50) ![2, 0, 0] S1x128x50.size inb_S5x128x50_S1x128x50_2_0_0
abbrev rA3 : Rect S5x128x50 := Rect.unit (s := S5x128x50) ![3, 0, 0] S1x128x50.size inb_S5x128x50_S1x128x50_3_0_0
abbrev rA4 : Rect S5x128x50 := Rect.unit (s := S5x128x50) ![4, 0, 0] S1x128x50.size inb_S5x128x50_S1x128x50_4_0_0
abbrev rB0 : Rect S5x50x128 := Rect.unit (s := S5x50x128) ![0, 0, 0] S1x50x128.size inb_S5x50x128_S1x50x128_0_0_0
abbrev rB1 : Rect S5x50x128 := Rect.unit (s := S5x50x128) ![1, 0, 0] S1x50x128.size inb_S5x50x128_S1x50x128_1_0_0
abbrev rB2 : Rect S5x50x128 := Rect.unit (s := S5x50x128) ![2, 0, 0] S1x50x128.size inb_S5x50x128_S1x50x128_2_0_0
abbrev rB3 : Rect S5x50x128 := Rect.unit (s := S5x50x128) ![3, 0, 0] S1x50x128.size inb_S5x50x128_S1x50x128_3_0_0
abbrev rB4 : Rect S5x50x128 := Rect.unit (s := S5x50x128) ![4, 0, 0] S1x50x128.size inb_S5x50x128_S1x50x128_4_0_0
abbrev rS : Rect S128x50 := Rect.unit (s := S128x50) ![0, 0] S128x50.size inb_S128x50_S128x50_0_0

/-- One point's accumulation: from the point's two input blocks and the accumulator's contents s, the accumulator's
    new contents — s plus, for each of the 128 rows and 50 features of the block, the 128 columns' contributions. -/
def accum (i : grid1.Coords) (x0 : Vec F S5x128x50 .f32) (x1 : Vec F S5x50x128 .f32) (s : Vec F S128x50 .f32) : Vec F S128x50 .f32 :=
  k1_pay1 (k1_pay5 (Scalar.muli (BitVec.ofNat 32 (i 0).val) 128#32) (Scalar.muli (BitVec.ofNat 32 (i 1).val) 128#32)
    (k1_pay3 (View.ld x0 rA0) (View.ld x1 rB0) (View.ld x0 rA1) (View.ld x1 rB1)) (k1_pay4 (View.ld x0 rA2) (View.ld x1 rB2))
    (View.ld x0 rA3) (View.ld x1 rB3) (View.ld x0 rA4) (View.ld x1 rB4) s)

theorem rS_zero : (![0, 0] : Fin S128x50.rank → Nat) = fun _ => 0 := by
  funext a; match a with | ⟨0, _⟩ => rfl | ⟨1, _⟩ => rfl

/-- A store through the whole accumulator covers it. -/
theorem rS_cover (p0 : Vec F S128x50 .f32) (L : List (View.Piece (Elt F) S128x50 .f32)) (y : S128x50.Idx) :
    ∃ pc ∈ ((⟨rS, p0⟩ : View.Piece (Elt F) S128x50 .f32) :: L), y ∈ pc.1.set := by
  obtain ⟨pc, hpc, hy⟩ := View.cover_of_tiled [(⟨rS, p0⟩ : View.Piece (Elt F) S128x50 .f32)] S128x50.size (by rfl) y
  exact ⟨pc, List.mem_cons.mpr (Or.inl (List.mem_singleton.mp hpc)), hy⟩

/-- A load of the whole accumulator reads the accumulator. -/
theorem accum_ld (i : grid1.Coords) (x0 : Vec F S5x128x50 .f32) (x1 : Vec F S5x50x128 .f32) (s : Vec F S128x50 .f32) :
    accum i x0 x1 (View.ld s rS) = accum i x0 x1 s := by
  rw [View.ld_unit_zero rS_zero]

/-! ## The body, case by case: on whole buffers holding the two input blocks x0, x1, anything y in the output's and s in the accumulator -/

set_option maxHeartbeats 4000000 in
theorem caseFirst (c : Dev nD) (E : Set ℕ) (i : grid1.Coords) (hc1 : cond1 i) (hc2 : ¬ cond2 i)
    (arg2 : Memref sig .tc .vmem S5x128x50 .f32) (harg2 : arg2.IsWhole) (arg3 : Memref sig .tc .vmem S5x50x128 .f32) (harg3 : arg3.IsWhole)
    (arg4 : Memref sig .tc .vmem S128x50 .f32) (harg4 : arg4.IsWhole) (arg5 : Memref sig .tc .vmem S128x50 .f32) (harg5 : arg5.IsWhole)
    (x0 : Vec F S5x128x50 .f32) (x1 : Vec F S5x50x128 .f32) (y : Vec F S128x50 .f32) (s : Vec F S128x50 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare s
        ∗ (iprop(owns (c : Thread nD τ) arg2 fullShare x0 ∗ owns (c : Thread nD τ) arg3 fullShare x1 ∗ owns (c : Thread nD τ) arg4 fullShare (y)
            ∗ owns (c : Thread nD τ) arg5 fullShare (accum i x0 x1 (k1_pay2 (F := F)))) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (rS_cover _ _), View.canon_cons_unit_zero rS_zero, View.readCov_unit_zero _ rS_zero]
  rfl

set_option maxHeartbeats 4000000 in
theorem caseMiddle (c : Dev nD) (E : Set ℕ) (i : grid1.Coords) (hc1 : ¬ cond1 i) (hc2 : ¬ cond2 i)
    (arg2 : Memref sig .tc .vmem S5x128x50 .f32) (harg2 : arg2.IsWhole) (arg3 : Memref sig .tc .vmem S5x50x128 .f32) (harg3 : arg3.IsWhole)
    (arg4 : Memref sig .tc .vmem S128x50 .f32) (harg4 : arg4.IsWhole) (arg5 : Memref sig .tc .vmem S128x50 .f32) (harg5 : arg5.IsWhole)
    (x0 : Vec F S5x128x50 .f32) (x1 : Vec F S5x50x128 .f32) (y : Vec F S128x50 .f32) (s : Vec F S128x50 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare s
        ∗ (iprop(owns (c : Thread nD τ) arg2 fullShare x0 ∗ owns (c : Thread nD τ) arg3 fullShare x1 ∗ owns (c : Thread nD τ) arg4 fullShare (y)
            ∗ owns (c : Thread nD τ) arg5 fullShare (accum i x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (rS_cover _ _), View.canon_unit_zero rS_zero]
  exact accum_ld i _ _ _

set_option maxHeartbeats 4000000 in
theorem caseLast (c : Dev nD) (E : Set ℕ) (i : grid1.Coords) (hc1 : ¬ cond1 i) (hc2 : cond2 i)
    (arg2 : Memref sig .tc .vmem S5x128x50 .f32) (harg2 : arg2.IsWhole) (arg3 : Memref sig .tc .vmem S5x50x128 .f32) (harg3 : arg3.IsWhole)
    (arg4 : Memref sig .tc .vmem S128x50 .f32) (harg4 : arg4.IsWhole) (arg5 : Memref sig .tc .vmem S128x50 .f32) (harg5 : arg5.IsWhole)
    (x0 : Vec F S5x128x50 .f32) (x1 : Vec F S5x50x128 .f32) (y : Vec F S128x50 .f32) (s : Vec F S128x50 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare s
        ∗ (iprop(owns (c : Thread nD τ) arg2 fullShare x0 ∗ owns (c : Thread nD τ) arg3 fullShare x1 ∗ owns (c : Thread nD τ) arg4 fullShare (accum i x0 x1 s)
            ∗ owns (c : Thread nD τ) arg5 fullShare (accum i x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (rS_cover _ _), View.canon_unit_zero rS_zero, View.readCov_unit_zero _ rS_zero]
    exact accum_ld i _ _ _
  iexists _; isplitr
  swap; · iexact H3
  ipureintro
  sl_unfold_run_names
  rw [View.read_writes_eq_canon _ _ _ (rS_cover _ _), View.canon_unit_zero rS_zero]
  exact accum_ld i _ _ _

/-! ## The conditions and the schedule, decided over the 64 grid points -/

theorem hcond1 : ∀ t : Fin cfg1.N, cond1 (grid1.coords t) ↔ t.val % 8 = 0 :=
  (by decide +kernel : ∀ t : Fin grid1.N, cond1 (grid1.coords t) ↔ t.val % 8 = 0)
theorem hcond2 : ∀ t : Fin cfg1.N, cond2 (grid1.coords t) ↔ t.val % 8 = 7 :=
  (by decide +kernel : ∀ t : Fin grid1.N, cond2 (grid1.coords t) ↔ t.val % 8 = 7)
theorem liveAt1_0 : ∀ t : Fin cfg1.N, cfg1.idle 0 (grid1.coords t) = false := by decide +kernel
theorem liveAt1_1 : ∀ t : Fin cfg1.N, cfg1.idle 1 (grid1.coords t) = false := by decide +kernel
/-- Off the last column block the output window is idle and is not written back; on it, it is live. -/
theorem idleAt1_2 : ∀ t : Fin cfg1.N, ¬cond2 (grid1.coords t) → cfg1.idle 2 (grid1.coords t) = true := by decide +kernel
theorem noFlush1_2 : ∀ t : Fin cfg1.N, ¬cond2 (grid1.coords t) → (cfg1.win 2).flush t = false := by decide +kernel
theorem liveAt1_2 : ∀ t : Fin cfg1.N, cond2 (grid1.coords t) → cfg1.idle 2 (grid1.coords t) = false := by decide +kernel

section

variable (V : (c : Dev nD) → (b : Ref sig .tc) → Buf (Elt F) ((c : Thread nD τ).loc b))

/-- Window w's block of its array at point t, the arrays as the region finds them. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- THE ACCUMULATOR after point n: the point's accumulation onto zero at the first column block of a row block, onto
    what the point before left otherwise. -/
def accAt (c : Dev nD) : (n : ℕ) → n < cfg1.N → Vec F S128x50 .f32
  | 0, hn => accum (grid1.coords ⟨0, hn⟩) (blk1 V c 0 ⟨0, hn⟩) (blk1 V c 1 ⟨0, hn⟩) (k1_pay2 (F := F))
  | n + 1, hn => accum (grid1.coords ⟨n + 1, hn⟩) (blk1 V c 0 ⟨n + 1, hn⟩) (blk1 V c 1 ⟨n + 1, hn⟩)
      (if (n + 1) % 8 = 0 then k1_pay2 (F := F) else accAt c n (Nat.lt_of_succ_lt hn))

theorem accAt_first (c : Dev nD) (t : Fin cfg1.N) (h0 : t.val % 8 = 0) :
    accAt V c t.val t.isLt = accum (grid1.coords t) (blk1 V c 0 t) (blk1 V c 1 t) (k1_pay2 (F := F)) := by
  obtain ⟨n, hn⟩ := t
  cases n with
  | zero => rfl
  | succ n => exact congrArg (accum _ _ _) (if_pos h0)

theorem accAt_next (c : Dev nD) (t : Fin cfg1.N) (h0 : ¬t.val % 8 = 0) :
    accAt V c t.val t.isLt = accum (grid1.coords t) (blk1 V c 0 t) (blk1 V c 1 t)
      (accAt V c (t.val - 1) (Nat.lt_of_le_of_lt (Nat.sub_le _ _) t.isLt)) := by
  obtain ⟨n, hn⟩ := t
  cases n with
  | zero => exact absurd (Nat.zero_mod _) h0
  | succ n => exact congrArg (accum _ _ _) (if_neg h0)

/-- The scratch accumulator, a whole scoped buffer of the kernel's own. -/
abbrev scM : Memref sig .tc .vmem S128x50 .f32 := Memref.whole cc1_scratch0

/-- The region's invariant before position n: at the start whatever the launch hands the region (every scoped
    buffer no window stages at some contents, the generator register); afterwards the same with the accumulator
    at what the point before left. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (accAt V c n hn)) ∗ (∃ r, prngReg c r))

/-- What the launch hands the region, with the accumulator's buffer as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM fullShare d)) ∗ (∃ r, prngReg c r)) := by
  unfold Pipeline.ΦA; rw [scopedRest1_eq]; simp only [scM, owns_whole]; try rfl

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (accAt V c n hn)) ∗ (∃ r, prngReg c r)) := rfl
theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (accAt V c (n - 1) (by omega))) ∗ (∃ r, prngReg c r)) := by
  cases n with
  | zero => exact absurd rfl hz
  | succ n => rfl

/-- At any position the invariant gives the accumulator's buffer at SOME contents. -/
theorem PhiS_weak (c : Dev nD) (n : ℕ) (h : n ≤ cfg1.N) :
    PhiS V c n h ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM fullShare d)) ∗ (∃ r, prngReg c r)) := by
  by_cases hz : n = 0
  · rw [PhiS_zero V c n h hz, PhiA1_eq]; try exact BI.Entails.refl _
  · rw [PhiS_pos V c n h hz]
    iintro ⟨⟨A0, A1, A2, A3, A4, A5, HS⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      iexists _; iexact HS
    iexact Hg

/-- The proof data of the second region on core c: the arrays as the region finds them; after the body the inputs'
    buffers at their blocks and the output's at the accumulator's contents (consulted only where the block is written
    back, at the last column block); the invariant carries the accumulator; nothing is owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = accAt V c t.val t.isLt := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the closed forms say which case the point is in; the invariant hands the body the
    accumulator (at what the point before left, or at anything where it is about to be zeroed) and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · -- the first column block: the accumulator is zeroed, whatever it held
    have hc1 : cond1 (grid1.coords t) := (hcond1 t).mpr h0
    have hc2 : ¬cond2 (grid1.coords t) := fun h => by have := (hcond2 t).mp h; omega
    rw [Dat.leavesExact_idle (dat1 V c) 2 t (idleAt1_2 t hc2) (noFlush1_2 t hc2)]
    rw [accAt_first V c t h0, PhiS_castSucc V c t]
    iintro ⟨HΦ, Ho, ⟨%d0, H0⟩, ⟨%d1, H1⟩, ⟨%d2, H2⟩⟩
    ihave HΦ' := (PhiS_weak V c t.val (Nat.le_of_lt t.isLt)) $$ HΦ
    icases HΦ' with ⟨⟨A0, A1, A2, A3, A4, A5, ⟨%s, HS⟩⟩, Hg⟩
    iapply (caseFirst c Set.univ (grid1.coords t) hc1 hc2 _ _ _ _ _ _ _ _ (blk1 V c 0 t) (blk1 V c 1 t) _ s _)
    isplitl [H0]; · iexact H0
    isplitl [H1]; · iexact H1
    isplitl [H2]; · iexact H2
    isplitl [HS]; · iexact HS
    iintro ⟨H0, H1, H2, HS⟩
    isplitl [A0 A1 A2 A3 A4 A5 HS Hg]
    · isplitr [Hg]
      · isplitl [A0]; · iexact A0
        isplitl [A1]; · iexact A1
        isplitl [A2]; · iexact A2
        isplitl [A3]; · iexact A3
        isplitl [A4]; · iexact A4
        isplitl [A5]; · iexact A5
        iexact HS
      iexact Hg
    isplitl [Ho]; · iexact Ho
    isplitl [H0]; · iexact H0
    isplitl [H1]; · iexact H1
    iexists _; iexact H2
  · have hc1 : ¬cond1 (grid1.coords t) := fun h => h0 ((hcond1 t).mp h)
    have hz : t.val ≠ 0 := fun h => h0 (by rw [h])
    rw [accAt_next V c t h0, PhiS_castSucc V c t, PhiS_pos V c _ _ hz]
    by_cases h1 : t.val % 8 = 7
    · -- the last column block: the accumulator is copied to the output's buffer
      have hc2 : cond2 (grid1.coords t) := (hcond2 t).mpr h1
      rw [show (dat1 V c).leavesExact 2 t = owns (c : Thread nD τ) (st1_2 t) fullShare ((dat1 V c).after 2 t) from by
        unfold Dat.leavesExact; rw [liveAt1_2 t hc2], after1_2, accAt_next V c t h0]
      iintro ⟨⟨⟨A0, A1, A2, A3, A4, A5, HS⟩, Hg⟩, Ho, ⟨%d0, H0⟩, ⟨%d1, H1⟩, ⟨%d2, H2⟩⟩
      iapply (caseLast c Set.univ (grid1.coords t) hc1 hc2 _ _ _ _ _ _ _ _ (blk1 V c 0 t) (blk1 V c 1 t) _ _ _)
      isplitl [H0]; · iexact H0
      isplitl [H1]; · iexact H1
      isplitl [H2]; · iexact H2
      isplitl [HS]; · iexact HS
      iintro ⟨H0, H1, H2, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexact H2
    · have hc2 : ¬cond2 (grid1.coords t) := fun h => h1 ((hcond2 t).mp h)
      rw [Dat.leavesExact_idle (dat1 V c) 2 t (idleAt1_2 t hc2) (noFlush1_2 t hc2)]
      iintro ⟨⟨⟨A0, A1, A2, A3, A4, A5, HS⟩, Hg⟩, Ho, ⟨%d0, H0⟩, ⟨%d1, H1⟩, ⟨%d2, H2⟩⟩
      iapply (caseMiddle c Set.univ (grid1.coords t) hc1 hc2 _ _ _ _ _ _ _ _ (blk1 V c 0 t) (blk1 V c 1 t) _ _ _)
      isplitl [H0]; · iexact H0
      isplitl [H1]; · iexact H1
      isplitl [H2]; · iexact H2
      isplitl [HS]; · iexact HS
      iintro ⟨H0, H1, H2, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_weak V c _ _

end

end Cert.KernelIdeal.Hand

end
-- ==== Proof.RunI.lean ====
/-
  The run of @main: region, host stretch, region, host stretch.

  Between two items every unscoped buffer of the TensorCore is held whole at contents that are named here by a fold
  from the launch memory: a region leaves its windows' arrays at what its write-backs produce (the proof data's
  `arrAt`) and every other buffer as it found it; a host stretch leaves what its operations compute. Each region is
  entered from the contents the item before it left, so the second region's proof data are stated at the first
  region's results carried through the reshape and the two transposes. The run ends with every unscoped buffer at the
  last contents `W4`; in particular the three argument arrays are as launched, because no item writes them.
-/
import proofs.«157004_j87720412053850_1_alg».proof.Proof.Region0I
import proofs.«157004_j87720412053850_1_alg».proof.Proof.Region1I

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- The same read at the TensorCore's references: what the first region's proof data take. -/
abbrev Ve0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (Ve0 m ρ) c).arrAt w cfg0.N
theorem W1_arr (c : Dev nD) (w : Fin cfg0.W) :
    W1 m ρ c (Proc.devRef .tc (Pipeline.arrRef spec0 w)) = (dat0 (Ve0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vx0 : (c : Dev nD) → (b : Ref sig .tc) → Buf (Elt F) ((c : Thread nD τ).loc b) := fun c b => W1 m ρ c b
theorem hF0 (c : Dev nD) (w : Fin cfg0.W) : (dat0 (Ve0 m ρ) c).arrAt w cfg0.N = Vx0 m ρ c (Pipeline.arrRef spec0 w) :=
  (W1_arr m ρ c w).symm
theorem hrest0 (c : Dev nD) : ∀ b, b ∉ Finset.univ.image (Pipeline.arrRef spec0) → Vx0 m ρ c b = Ve0 m ρ c b :=
  fun b hb => W1_of_ne m ρ c b fun w e => hb (Finset.mem_image.mpr ⟨w, Finset.mem_univ _, e⟩)

/-- After the reshape and the two transposes: the second region's entry. -/
abbrev W2 : Dev nD → Valuation τ sig (Elt F) := fun c => StableHlo.after hostOps1 (W1 m ρ c)
abbrev Ve1 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)
/-- After the concatenation: the end. -/
abbrev W4 : Dev nD → Valuation τ sig (Elt F) := fun c => StableHlo.after hostOps2 (W3 m ρ c)

/-! ## No item writes an argument array: the fold at an argument walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.binary_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg0) := (W1_arr m ρ c 0).trans (((dat0 (Ve0 m ρ) c).arrAt_in 0 rfl _).trans (A_eq0 (Ve0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.binary_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg1) := (W1_arr m ρ c 1).trans (((dat0 (Ve0 m ρ) c).arrAt_in 1 rfl _).trans (A_eq0 (Ve0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.binary_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg2) := (W1_arr m ρ c 2).trans (((dat0 (Ve0 m ρ) c).arrAt_in 2 rfl _).trans (A_eq0 (Ve0 m ρ) c 2))
    _ = m ((c : Thread nD τ).loc main_arg2) := rfl

/-! ## The proof data family and what rides beside the buffers -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_noalloc : (hostOps1 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the boundary's contents, left with the
    region's arrays at what its write-backs leave and every other buffer as entered; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Vx0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (Ve1 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_noalloc (W1 m ρ)),
    .region (reg1 m ρ),
    .host (hseg hostOps2 hostOps2_sub hostOps2_noalloc (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final memory holds every unscoped buffer at `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

end Cert.KernelIdeal.Hand

end
-- ==== Proof.Region0K.lean ====
/-
  The first kernel region: act = x·W + bias, four row blocks of 256 rows.

  At a grid point t the body reads the point's block of x (rows 256 t … 256 t + 255, all 2048 columns), the whole of W
  and the whole bias, and stores into the output window's buffer the product of the two blocks plus the bias row
  broadcast down the 256 rows. Nothing is kept between points. The proof data therefore say: each input window's
  buffer holds its block at every point, and the output window's buffer holds, after the body, the one stored
  piece read back (`rowBlock`) — a function of the three input blocks alone.
-/
import proofs.«157004_j87720412053850_1_alg».proof.Proof.Gen.Kernel.Launch
import proofs.«157004_j87720412053850_1_alg».proof.Proof.Gen.Kernel.Skeleton
import proofs.«157004_j87720412053850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window w's block of its array at point t, the arrays as the region finds them. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the point fetched it or not: where it is not
    fetched the block index has not moved since the last fetch. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rX : Rect S256x2048 := Rect.unit (s := S256x2048) ![0, 0] S256x2048.size inb_S256x2048_S256x2048_0_0
abbrev rW : Rect S2048x250 := Rect.unit (s := S2048x250) ![0, 0] S2048x250.size inb_S2048x250_S2048x250_0_0
abbrev rB : Rect S250 := Rect.unit (s := S250) ![0] S250.size inb_S250_S250_0
abbrev rO : Rect S256x250 := Rect.unit (s := S256x250) ![0, 0] S256x250.size inb_S256x250_S256x250_0_0

/-- What the body leaves in the output window's buffer: its one store, read back. -/
def rowBlock (x0 : Vec F S256x2048 .f32) (x1 : Vec F S2048x250 .f32) (x2 : Vec F S250 .f32) : Vec F S256x250 .f32 :=
  View.canon [⟨rO, k0_pay1 (View.ld x0 rX) (View.ld x1 rW) (View.ld x2 rB)⟩]

/-- The store is through the whole buffer, so it covers it. -/
theorem rowBlock_cover (p0 : Vec F S256x250 .f32) (y : S256x250.Idx) :
    ∃ pc ∈ ([⟨rO, p0⟩] : List (View.Piece (Elt F) S256x250 .f32)), y ∈ pc.1.set :=
  View.cover_of_tiled [⟨rO, p0⟩] S256x250.size (by rfl) y

set_option maxHeartbeats 1000000 in
/-- The body on whole buffers holding x0, x1, x2 and anything in the output's: it ends with the inputs as they were
    and the output's buffer at `rowBlock x0 x1 x2`. -/
theorem sound_kernel0 (c : Dev nD) (E : Set ℕ) (i : grid0.Coords)
    (arg1 : Memref sig .tc .vmem S256x2048 .f32) (harg1 : arg1.IsWhole) (arg2 : Memref sig .tc .vmem S2048x250 .f32) (harg2 : arg2.IsWhole)
    (arg3 : Memref sig .tc .vmem S250 .f32) (harg3 : arg3.IsWhole) (arg4 : Memref sig .tc .vmem S256x250 .f32) (harg4 : arg4.IsWhole)
    (x0 : Vec F S256x2048 .f32) (x1 : Vec F S2048x250 .f32) (x2 : Vec F S250 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (rowBlock x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (rowBlock_cover _)

/-- The proof data of the first region on core c: the arrays as the region finds them; after the body at point t the
    inputs' buffers at their blocks and the output's at `rowBlock` of them; the scoped rest and the generator register
    pass through untouched; nothing is owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => rowBlock (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = rowBlock (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Region1K.lean ====
/-
  The second kernel region: the pairwise features, a grid of 8 row blocks by 8 column blocks.

  At grid point (ni, j) the body holds rows 128 ni … 128 ni + 127 of the activations (laid out coordinate-major,
  [5, 128, 50]) and columns 128 j … 128 j + 127 of the same activations transposed ([5, 50, 128]). It keeps a
  [128, 50] accumulator in a scratch buffer that outlives the point: at j = 0 the accumulator is zeroed, at every j
  it gains the 128 columns' contributions (`accum`), and at j = 7 it is copied into the output window's buffer,
  which is written back only then. So the body has three control cases (j = 0; 0 < j < 7; j = 7), what the
  accumulator holds after a point is a recursion on the point (`accAt`), and the region's invariant carries the
  accumulator at that contents from one point to the next.
-/
import proofs.«157004_j87720412053850_1_alg».proof.Proof.Gen.Kernel.Launch
import proofs.«157004_j87720412053850_1_alg».proof.Proof.Gen.Kernel.Skeleton
import proofs.«157004_j87720412053850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's two branch conditions as the kernel computes them from the grid coordinates: first column block (j = 0),
    last column block (j = 7). -/
abbrev cond1 (i : grid1.Coords) : Prop := (Scalar.cmpi .ne (Scalar.extui (Scalar.cmpi .eq (BitVec.ofNat 32 (i 1).val) 0#32)) 0#32) = 1#1
abbrev cond2 (i : grid1.Coords) : Prop := k1_cond2 i = 1#1

/-- The rectangles the body loads and stores through: slab d of each input block, the whole accumulator. -/
abbrev rA0 : Rect S5x128x50 := Rect.unit (s := S5x128x50) ![0, 0, 0] S1x128x50.size inb_S5x128x50_S1x128x50_0_0_0
abbrev rA1 : Rect S5x128x50 := Rect.unit (s := S5x128x50) ![1, 0, 0] S1x128x50.size inb_S5x128x50_S1x128x50_1_0_0
abbrev rA2 : Rect S5x128x50 := Rect.unit (s := S5x128x50) ![2, 0, 0] S1x128x50.size inb_S5x128x50_S1x128x50_2_0_0
abbrev rA3 : Rect S5x128x50 := Rect.unit (s := S5x128x50) ![3, 0, 0] S1x128x50.size inb_S5x128x50_S1x128x50_3_0_0
abbrev rA4 : Rect S5x128x50 := Rect.unit (s := S5x128x50) ![4, 0, 0] S1x128x50.size inb_S5x128x50_S1x128x50_4_0_0
abbrev rB0 : Rect S5x50x128 := Rect.unit (s := S5x50x128) ![0, 0, 0] S1x50x128.size inb_S5x50x128_S1x50x128_0_0_0
abbrev rB1 : Rect S5x50x128 := Rect.unit (s := S5x50x128) ![1, 0, 0] S1x50x128.size inb_S5x50x128_S1x50x128_1_0_0
abbrev rB2 : Rect S5x50x128 := Rect.unit (s := S5x50x128) ![2, 0, 0] S1x50x128.size inb_S5x50x128_S1x50x128_2_0_0
abbrev rB3 : Rect S5x50x128 := Rect.unit (s := S5x50x128) ![3, 0, 0] S1x50x128.size inb_S5x50x128_S1x50x128_3_0_0
abbrev rB4 : Rect S5x50x128 := Rect.unit (s := S5x50x128) ![4, 0, 0] S1x50x128.size inb_S5x50x128_S1x50x128_4_0_0
abbrev rS : Rect S128x50 := Rect.unit (s := S128x50) ![0, 0] S128x50.size inb_S128x50_S128x50_0_0

/-- One point's accumulation: from the point's two input blocks and the accumulator's contents s, the accumulator's
    new contents — s plus, for each of the 128 rows and 50 features of the block, the 128 columns' contributions. -/
def accum (i : grid1.Coords) (x0 : Vec F S5x128x50 .f32) (x1 : Vec F S5x50x128 .f32) (s : Vec F S128x50 .f32) : Vec F S128x50 .f32 :=
  k1_pay1 (k1_pay5 (Scalar.muli (BitVec.ofNat 32 (i 0).val) 128#32) (Scalar.muli (BitVec.ofNat 32 (i 1).val) 128#32)
    (k1_pay3 (View.ld x0 rA0) (View.ld x1 rB0) (View.ld x0 rA1) (View.ld x1 rB1)) (k1_pay4 (View.ld x0 rA2) (View.ld x1 rB2))
    (View.ld x0 rA3) (View.ld x1 rB3) (View.ld x0 rA4) (View.ld x1 rB4) s)

theorem rS_zero : (![0, 0] : Fin S128x50.rank → Nat) = fun _ => 0 := by
  funext a; match a with | ⟨0, _⟩ => rfl | ⟨1, _⟩ => rfl

/-- A store through the whole accumulator covers it. -/
theorem rS_cover (p0 : Vec F S128x50 .f32) (L : List (View.Piece (Elt F) S128x50 .f32)) (y : S128x50.Idx) :
    ∃ pc ∈ ((⟨rS, p0⟩ : View.Piece (Elt F) S128x50 .f32) :: L), y ∈ pc.1.set := by
  obtain ⟨pc, hpc, hy⟩ := View.cover_of_tiled [(⟨rS, p0⟩ : View.Piece (Elt F) S128x50 .f32)] S128x50.size (by rfl) y
  exact ⟨pc, List.mem_cons.mpr (Or.inl (List.mem_singleton.mp hpc)), hy⟩

/-- A load of the whole accumulator reads the accumulator. -/
theorem accum_ld (i : grid1.Coords) (x0 : Vec F S5x128x50 .f32) (x1 : Vec F S5x50x128 .f32) (s : Vec F S128x50 .f32) :
    accum i x0 x1 (View.ld s rS) = accum i x0 x1 s := by
  rw [View.ld_unit_zero rS_zero]

/-! ## The body, case by case: on whole buffers holding the two input blocks x0, x1, anything y in the output's and s in the accumulator -/

set_option maxHeartbeats 4000000 in
theorem caseFirst (c : Dev nD) (E : Set ℕ) (i : grid1.Coords) (hc1 : cond1 i) (hc2 : ¬ cond2 i)
    (arg2 : Memref sig .tc .vmem S5x128x50 .f32) (harg2 : arg2.IsWhole) (arg3 : Memref sig .tc .vmem S5x50x128 .f32) (harg3 : arg3.IsWhole)
    (arg4 : Memref sig .tc .vmem S128x50 .f32) (harg4 : arg4.IsWhole) (arg5 : Memref sig .tc .vmem S128x50 .f32) (harg5 : arg5.IsWhole)
    (x0 : Vec F S5x128x50 .f32) (x1 : Vec F S5x50x128 .f32) (y : Vec F S128x50 .f32) (s : Vec F S128x50 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare s
        ∗ (iprop(owns (c : Thread nD τ) arg2 fullShare x0 ∗ owns (c : Thread nD τ) arg3 fullShare x1 ∗ owns (c : Thread nD τ) arg4 fullShare (y)
            ∗ owns (c : Thread nD τ) arg5 fullShare (accum i x0 x1 (k1_pay2 (F := F)))) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (rS_cover _ _), View.canon_cons_unit_zero rS_zero, View.readCov_unit_zero _ rS_zero]
  rfl

set_option maxHeartbeats 4000000 in
theorem caseMiddle (c : Dev nD) (E : Set ℕ) (i : grid1.Coords) (hc1 : ¬ cond1 i) (hc2 : ¬ cond2 i)
    (arg2 : Memref sig .tc .vmem S5x128x50 .f32) (harg2 : arg2.IsWhole) (arg3 : Memref sig .tc .vmem S5x50x128 .f32) (harg3 : arg3.IsWhole)
    (arg4 : Memref sig .tc .vmem S128x50 .f32) (harg4 : arg4.IsWhole) (arg5 : Memref sig .tc .vmem S128x50 .f32) (harg5 : arg5.IsWhole)
    (x0 : Vec F S5x128x50 .f32) (x1 : Vec F S5x50x128 .f32) (y : Vec F S128x50 .f32) (s : Vec F S128x50 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare s
        ∗ (iprop(owns (c : Thread nD τ) arg2 fullShare x0 ∗ owns (c : Thread nD τ) arg3 fullShare x1 ∗ owns (c : Thread nD τ) arg4 fullShare (y)
            ∗ owns (c : Thread nD τ) arg5 fullShare (accum i x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (rS_cover _ _), View.canon_unit_zero rS_zero]
  exact accum_ld i _ _ _

set_option maxHeartbeats 4000000 in
theorem caseLast (c : Dev nD) (E : Set ℕ) (i : grid1.Coords) (hc1 : ¬ cond1 i) (hc2 : cond2 i)
    (arg2 : Memref sig .tc .vmem S5x128x50 .f32) (harg2 : arg2.IsWhole) (arg3 : Memref sig .tc .vmem S5x50x128 .f32) (harg3 : arg3.IsWhole)
    (arg4 : Memref sig .tc .vmem S128x50 .f32) (harg4 : arg4.IsWhole) (arg5 : Memref sig .tc .vmem S128x50 .f32) (harg5 : arg5.IsWhole)
    (x0 : Vec F S5x128x50 .f32) (x1 : Vec F S5x50x128 .f32) (y : Vec F S128x50 .f32) (s : Vec F S128x50 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare s
        ∗ (iprop(owns (c : Thread nD τ) arg2 fullShare x0 ∗ owns (c : Thread nD τ) arg3 fullShare x1 ∗ owns (c : Thread nD τ) arg4 fullShare (accum i x0 x1 s)
            ∗ owns (c : Thread nD τ) arg5 fullShare (accum i x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (rS_cover _ _), View.canon_unit_zero rS_zero, View.readCov_unit_zero _ rS_zero]
    exact accum_ld i _ _ _
  iexists _; isplitr
  swap; · iexact H3
  ipureintro
  sl_unfold_run_names
  rw [View.read_writes_eq_canon _ _ _ (rS_cover _ _), View.canon_unit_zero rS_zero]
  exact accum_ld i _ _ _

/-! ## The conditions and the schedule, decided over the 64 grid points -/

theorem hcond1 : ∀ t : Fin cfg1.N, cond1 (grid1.coords t) ↔ t.val % 8 = 0 :=
  (by decide +kernel : ∀ t : Fin grid1.N, cond1 (grid1.coords t) ↔ t.val % 8 = 0)
theorem hcond2 : ∀ t : Fin cfg1.N, cond2 (grid1.coords t) ↔ t.val % 8 = 7 :=
  (by decide +kernel : ∀ t : Fin grid1.N, cond2 (grid1.coords t) ↔ t.val % 8 = 7)
theorem liveAt1_0 : ∀ t : Fin cfg1.N, cfg1.idle 0 (grid1.coords t) = false := by decide +kernel
theorem liveAt1_1 : ∀ t : Fin cfg1.N, cfg1.idle 1 (grid1.coords t) = false := by decide +kernel
/-- Off the last column block the output window is idle and is not written back; on it, it is live. -/
theorem idleAt1_2 : ∀ t : Fin cfg1.N, ¬cond2 (grid1.coords t) → cfg1.idle 2 (grid1.coords t) = true := by decide +kernel
theorem noFlush1_2 : ∀ t : Fin cfg1.N, ¬cond2 (grid1.coords t) → (cfg1.win 2).flush t = false := by decide +kernel
theorem liveAt1_2 : ∀ t : Fin cfg1.N, cond2 (grid1.coords t) → cfg1.idle 2 (grid1.coords t) = false := by decide +kernel

section

variable (V : (c : Dev nD) → (b : Ref sig .tc) → Buf (Elt F) ((c : Thread nD τ).loc b))

/-- Window w's block of its array at point t, the arrays as the region finds them. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- THE ACCUMULATOR after point n: the point's accumulation onto zero at the first column block of a row block, onto
    what the point before left otherwise. -/
def accAt (c : Dev nD) : (n : ℕ) → n < cfg1.N → Vec F S128x50 .f32
  | 0, hn => accum (grid1.coords ⟨0, hn⟩) (blk1 V c 0 ⟨0, hn⟩) (blk1 V c 1 ⟨0, hn⟩) (k1_pay2 (F := F))
  | n + 1, hn => accum (grid1.coords ⟨n + 1, hn⟩) (blk1 V c 0 ⟨n + 1, hn⟩) (blk1 V c 1 ⟨n + 1, hn⟩)
      (if (n + 1) % 8 = 0 then k1_pay2 (F := F) else accAt c n (Nat.lt_of_succ_lt hn))

theorem accAt_first (c : Dev nD) (t : Fin cfg1.N) (h0 : t.val % 8 = 0) :
    accAt V c t.val t.isLt = accum (grid1.coords t) (blk1 V c 0 t) (blk1 V c 1 t) (k1_pay2 (F := F)) := by
  obtain ⟨n, hn⟩ := t
  cases n with
  | zero => rfl
  | succ n => exact congrArg (accum _ _ _) (if_pos h0)

theorem accAt_next (c : Dev nD) (t : Fin cfg1.N) (h0 : ¬t.val % 8 = 0) :
    accAt V c t.val t.isLt = accum (grid1.coords t) (blk1 V c 0 t) (blk1 V c 1 t)
      (accAt V c (t.val - 1) (Nat.lt_of_le_of_lt (Nat.sub_le _ _) t.isLt)) := by
  obtain ⟨n, hn⟩ := t
  cases n with
  | zero => exact absurd (Nat.zero_mod _) h0
  | succ n => exact congrArg (accum _ _ _) (if_neg h0)

/-- The scratch accumulator, a whole scoped buffer of the kernel's own. -/
abbrev scM : Memref sig .tc .vmem S128x50 .f32 := Memref.whole cc1_scratch0

/-- The region's invariant before position n: at the start whatever the launch hands the region (every scoped
    buffer no window stages at some contents, the generator register); afterwards the same with the accumulator
    at what the point before left. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (accAt V c n hn)) ∗ (∃ r, prngReg c r))

/-- What the launch hands the region, with the accumulator's buffer as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM fullShare d)) ∗ (∃ r, prngReg c r)) := by
  unfold Pipeline.ΦA; rw [scopedRest1_eq]; simp only [scM, owns_whole]; try rfl

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (accAt V c n hn)) ∗ (∃ r, prngReg c r)) := rfl
theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM fullShare (accAt V c (n - 1) (by omega))) ∗ (∃ r, prngReg c r)) := by
  cases n with
  | zero => exact absurd rfl hz
  | succ n => rfl

/-- At any position the invariant gives the accumulator's buffer at SOME contents. -/
theorem PhiS_weak (c : Dev nD) (n : ℕ) (h : n ≤ cfg1.N) :
    PhiS V c n h ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM fullShare d)) ∗ (∃ r, prngReg c r)) := by
  by_cases hz : n = 0
  · rw [PhiS_zero V c n h hz, PhiA1_eq]; try exact BI.Entails.refl _
  · rw [PhiS_pos V c n h hz]
    iintro ⟨⟨A0, A1, A2, A3, A4, A5, HS⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      iexists _; iexact HS
    iexact Hg

/-- The proof data of the second region on core c: the arrays as the region finds them; after the body the inputs'
    buffers at their blocks and the output's at the accumulator's contents (consulted only where the block is written
    back, at the last column block); the invariant carries the accumulator; nothing is owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = accAt V c t.val t.isLt := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the closed forms say which case the point is in; the invariant hands the body the
    accumulator (at what the point before left, or at anything where it is about to be zeroed) and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · -- the first column block: the accumulator is zeroed, whatever it held
    have hc1 : cond1 (grid1.coords t) := (hcond1 t).mpr h0
    have hc2 : ¬cond2 (grid1.coords t) := fun h => by have := (hcond2 t).mp h; omega
    rw [Dat.leavesExact_idle (dat1 V c) 2 t (idleAt1_2 t hc2) (noFlush1_2 t hc2)]
    rw [accAt_first V c t h0, PhiS_castSucc V c t]
    iintro ⟨HΦ, Ho, ⟨%d0, H0⟩, ⟨%d1, H1⟩, ⟨%d2, H2⟩⟩
    ihave HΦ' := (PhiS_weak V c t.val (Nat.le_of_lt t.isLt)) $$ HΦ
    icases HΦ' with ⟨⟨A0, A1, A2, A3, A4, A5, ⟨%s, HS⟩⟩, Hg⟩
    iapply (caseFirst c Set.univ (grid1.coords t) hc1 hc2 _ _ _ _ _ _ _ _ (blk1 V c 0 t) (blk1 V c 1 t) _ s _)
    isplitl [H0]; · iexact H0
    isplitl [H1]; · iexact H1
    isplitl [H2]; · iexact H2
    isplitl [HS]; · iexact HS
    iintro ⟨H0, H1, H2, HS⟩
    isplitl [A0 A1 A2 A3 A4 A5 HS Hg]
    · isplitr [Hg]
      · isplitl [A0]; · iexact A0
        isplitl [A1]; · iexact A1
        isplitl [A2]; · iexact A2
        isplitl [A3]; · iexact A3
        isplitl [A4]; · iexact A4
        isplitl [A5]; · iexact A5
        iexact HS
      iexact Hg
    isplitl [Ho]; · iexact Ho
    isplitl [H0]; · iexact H0
    isplitl [H1]; · iexact H1
    iexists _; iexact H2
  · have hc1 : ¬cond1 (grid1.coords t) := fun h => h0 ((hcond1 t).mp h)
    have hz : t.val ≠ 0 := fun h => h0 (by rw [h])
    rw [accAt_next V c t h0, PhiS_castSucc V c t, PhiS_pos V c _ _ hz]
    by_cases h1 : t.val % 8 = 7
    · -- the last column block: the accumulator is copied to the output's buffer
      have hc2 : cond2 (grid1.coords t) := (hcond2 t).mpr h1
      rw [show (dat1 V c).leavesExact 2 t = owns (c : Thread nD τ) (st1_2 t) fullShare ((dat1 V c).after 2 t) from by
        unfold Dat.leavesExact; rw [liveAt1_2 t hc2], after1_2, accAt_next V c t h0]
      iintro ⟨⟨⟨A0, A1, A2, A3, A4, A5, HS⟩, Hg⟩, Ho, ⟨%d0, H0⟩, ⟨%d1, H1⟩, ⟨%d2, H2⟩⟩
      iapply (caseLast c Set.univ (grid1.coords t) hc1 hc2 _ _ _ _ _ _ _ _ (blk1 V c 0 t) (blk1 V c 1 t) _ _ _)
      isplitl [H0]; · iexact H0
      isplitl [H1]; · iexact H1
      isplitl [H2]; · iexact H2
      isplitl [HS]; · iexact HS
      iintro ⟨H0, H1, H2, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexact H2
    · have hc2 : ¬cond2 (grid1.coords t) := fun h => h1 ((hcond2 t).mp h)
      rw [Dat.leavesExact_idle (dat1 V c) 2 t (idleAt1_2 t hc2) (noFlush1_2 t hc2)]
      iintro ⟨⟨⟨A0, A1, A2, A3, A4, A5, HS⟩, Hg⟩, Ho, ⟨%d0, H0⟩, ⟨%d1, H1⟩, ⟨%d2, H2⟩⟩
      iapply (caseMiddle c Set.univ (grid1.coords t) hc1 hc2 _ _ _ _ _ _ _ _ (blk1 V c 0 t) (blk1 V c 1 t) _ _ _)
      isplitl [H0]; · iexact H0
      isplitl [H1]; · iexact H1
      isplitl [H2]; · iexact H2
      isplitl [HS]; · iexact HS
      iintro ⟨H0, H1, H2, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_weak V c _ _

end

end Cert.Kernel.Hand

end
-- ==== Proof.RunK.lean ====
/-
  The run of @main: region, host stretch, region, host stretch.

  Between two items every unscoped buffer of the TensorCore is held whole at contents that are named here by a fold
  from the launch memory: a region leaves its windows' arrays at what its write-backs produce (the proof data's
  `arrAt`) and every other buffer as it found it; a host stretch leaves what its operations compute. Each region is
  entered from the contents the item before it left, so the second region's proof data are stated at the first
  region's results carried through the reshape and the two transposes. The run ends with every unscoped buffer at the
  last contents `W4`; in particular the three argument arrays are as launched, because no item writes them.
-/
import proofs.«157004_j87720412053850_1_alg».proof.Proof.Region0K
import proofs.«157004_j87720412053850_1_alg».proof.Proof.Region1K

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- The same read at the TensorCore's references: what the first region's proof data take. -/
abbrev Ve0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (Ve0 m ρ) c).arrAt w cfg0.N
theorem W1_arr (c : Dev nD) (w : Fin cfg0.W) :
    W1 m ρ c (Proc.devRef .tc (Pipeline.arrRef spec0 w)) = (dat0 (Ve0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vx0 : (c : Dev nD) → (b : Ref sig .tc) → Buf (Elt F) ((c : Thread nD τ).loc b) := fun c b => W1 m ρ c b
theorem hF0 (c : Dev nD) (w : Fin cfg0.W) : (dat0 (Ve0 m ρ) c).arrAt w cfg0.N = Vx0 m ρ c (Pipeline.arrRef spec0 w) :=
  (W1_arr m ρ c w).symm
theorem hrest0 (c : Dev nD) : ∀ b, b ∉ Finset.univ.image (Pipeline.arrRef spec0) → Vx0 m ρ c b = Ve0 m ρ c b :=
  fun b hb => W1_of_ne m ρ c b fun w e => hb (Finset.mem_image.mpr ⟨w, Finset.mem_univ _, e⟩)

/-- After the reshape and the two transposes: the second region's entry. -/
abbrev W2 : Dev nD → Valuation τ sig (Elt F) := fun c => StableHlo.after hostOps1 (W1 m ρ c)
abbrev Ve1 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)
/-- After the concatenation: the end. -/
abbrev W4 : Dev nD → Valuation τ sig (Elt F) := fun c => StableHlo.after hostOps2 (W3 m ρ c)

/-! ## No item writes an argument array: the fold at an argument walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.binary_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg0) := (W1_arr m ρ c 0).trans (((dat0 (Ve0 m ρ) c).arrAt_in 0 rfl _).trans (A_eq0 (Ve0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.binary_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg1) := (W1_arr m ρ c 1).trans (((dat0 (Ve0 m ρ) c).arrAt_in 1 rfl _).trans (A_eq0 (Ve0 m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.binary_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg2) := (W1_arr m ρ c 2).trans (((dat0 (Ve0 m ρ) c).arrAt_in 2 rfl _).trans (A_eq0 (Ve0 m ρ) c 2))
    _ = m ((c : Thread nD τ).loc main_arg2) := rfl

/-! ## The proof data family and what rides beside the buffers -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_noalloc : (hostOps1 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the boundary's contents, left with the
    region's arrays at what its write-backs leave and every other buffer as entered; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Vx0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (Ve1 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_noalloc (W1 m ρ)),
    .region (reg1 m ρ),
    .host (hseg hostOps2 hostOps2_sub hostOps2_noalloc (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final memory holds every unscoped buffer at `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

end Cert.Kernel.Hand

end
-- ==== Proof.Spec.lean ====
/-
  The function both programs compute, stated once over the extended reals.

  From x : [1024, 2048], W : [2048, 250] and bias : [250] form the activations
  act i c = (∑ k, x i k * W k c) + bias c, read as 50 features of 5 coordinates each
  (column 5 * k + d is coordinate d of feature k). For two rows i, j and a feature k the
  L1 distance is l1 i j k = ∑ d, |act i (5k+d) - act j (5k+d)|, with |t| = max t (-t).
  The minibatch feature is feat i k = ∑ j, exp (-(l1 i j k + [i = j])): every row of the batch
  contributes, the row itself with distance 0 + 1.
-/
import Idealize.ShloMosaic.PureOps.Ideal
import Idealize.ShloMosaic.Lib.ValueIdx

noncomputable section

namespace Cert.Spec

open Idealize.ShloMosaic Idealize.ShloMosaic.ValueIdx

/-- The activations: row i of x against column c of W, plus the bias of that column. -/
def act (x : (⟨2, ![1024, 2048]⟩ : Shape).Idx → EReal) (w : (⟨2, ![2048, 250]⟩ : Shape).Idx → EReal)
    (b : (⟨1, ![250]⟩ : Shape).Idx → EReal) (i : Fin 1024) (c : Fin 250) : EReal :=
  (∑ k : Fin 2048, x (ix2 i k) * w (ix2 k c)) + b (ix1 c)

/-- Column 5 * k + d of the activations: coordinate d of feature k. -/
def col (k : Fin 50) (d : Fin 5) : Fin 250 := ⟨k.val * 5 + d.val, by omega⟩

/-- |t| on the extended reals. -/
def eabs (t : EReal) : EReal := max t (-t)

/-- The L1 distance between rows i and j in feature k. -/
def l1 (A : Fin 1024 → Fin 250 → EReal) (i j : Fin 1024) (k : Fin 50) : EReal :=
  ∑ d : Fin 5, eabs (A i (col k d) - A j (col k d))

/-- 1 on the diagonal, 0 off it. -/
def diag (i j : Fin 1024) : EReal := if i = j then 1 else 0

/-- One row's contribution to a feature. -/
def term (A : Fin 1024 → Fin 250 → EReal) (i j : Fin 1024) (k : Fin 50) : EReal :=
  Ideal.exp (-(l1 A i j k + diag i j))

/-- The minibatch feature of row i, feature k: the contributions of all rows. -/
def feat (A : Fin 1024 → Fin 250 → EReal) (i : Fin 1024) (k : Fin 50) : EReal :=
  ∑ j : Fin 1024, term A i j k

/-- The features as an array [1024, 50] of the three argument arrays. -/
def featArr (x : (⟨2, ![1024, 2048]⟩ : Shape).Idx → EReal) (w : (⟨2, ![2048, 250]⟩ : Shape).Idx → EReal)
    (b : (⟨1, ![250]⟩ : Shape).Idx → EReal) : (⟨2, ![1024, 50]⟩ : Shape).Idx → EReal :=
  fun y => feat (act x w b) (y 0) (y 1)

end Cert.Spec

end
-- ==== Proof.RefValue.lean ====
/-
  The reference's result, read one operation at a time, is the concatenation of x with the features of Spec.
-/
import proofs.«157004_j87720412053850_1_alg».proof.Proof.Gen.ReferenceIdeal.Read
import proofs.«157004_j87720412053850_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable (x0 : (⟨S1024x2048, .f32⟩ : BufTy).Contents (Elt Ideal)) (x1 : (⟨S2048x250, .f32⟩ : BufTy).Contents (Elt Ideal))
  (x2 : (⟨S250, .f32⟩ : BufTy).Contents (Elt Ideal))

/-- The sum of products plus the bias, at row i and column c: the activations. -/
theorem v3_eq (i : Fin 1024) (c : Fin 250) :
    Read.val_main_v3 (F := Ideal) x0 x1 x2 (ix2 i c) = Spec.act x0 x1 x2 i c := by
  have el : ∀ k : Fin 2048, Read.lidx_main_v0 (ix2 i c) k = ix2 i k := fun k =>
    funext fun a => Fin.ext (by match a with | ⟨0, _⟩ => rfl | ⟨1, _⟩ => rfl)
  have er : ∀ k : Fin 2048, Read.ridx_main_v0 (ix2 i c) k = ix2 k c := fun k =>
    funext fun a => Fin.ext (by match a with | ⟨0, _⟩ => rfl | ⟨1, _⟩ => rfl)
  have eb : Read.idx_main_v1 (Read.idx_main_v2 (ix2 i c)) = ix1 c :=
    funext fun a => Fin.ext (by match a with | ⟨0, _⟩ => rfl)
  rw [Read.val_main_v3_apply, Read.val_main_v0_apply, Read.val_main_v2_apply, Read.val_main_v1_apply, eb, Ideal.addf_def]
  simp only [el, er]
  rfl

/-- Row-major reading of [1024, 250] as [1024, 50, 5]: coordinate d of feature k is column 5 * k + d. -/
theorem v4_eq (i : Fin 1024) (k : Fin 50) (d : Fin 5) :
    Read.val_main_v4 (F := Ideal) x0 x1 x2 (ix3 i k d) = Spec.act x0 x1 x2 i (Spec.col k d) := by
  have e : Read.idx_main_v4 (ix3 i k d) = ix2 i (Spec.col k d) :=
    funext fun a => Fin.ext (by
      have hi := i.isLt; have hk := k.isLt; have hd := d.isLt
      match a with
      | ⟨0, _⟩ => show ((i.val * 50 + k.val) * 5 + d.val) / 250 = i.val; omega
      | ⟨1, _⟩ => show ((i.val * 50 + k.val) * 5 + d.val) % 250 = k.val * 5 + d.val; omega)
  rw [Read.val_main_v4_apply, e, v3_eq]

/-- The difference of rows i and j in coordinate d of feature k. -/
theorem v10_eq (i : Fin 1024) (k : Fin 50) (d : Fin 5) (j : Fin 1024) :
    Read.val_main_v10 (F := Ideal) x0 x1 x2 (ix4 i k d j)
      = Spec.act x0 x1 x2 i (Spec.col k d) - Spec.act x0 x1 x2 j (Spec.col k d) := by
  have e8 : Read.idx_main_v5 (Read.idx_main_v8 (ix4 i k d j)) = ix3 i k d :=
    funext fun a => Fin.ext (by match a with | ⟨0, _⟩ => rfl | ⟨1, _⟩ => rfl | ⟨2, _⟩ => rfl)
  have e9 : Read.idx_main_v6 (Read.idx_main_v7 (Read.idx_main_v9 (ix4 i k d j))) = ix3 j k d :=
    funext fun a => Fin.ext (by match a with | ⟨0, _⟩ => rfl | ⟨1, _⟩ => rfl | ⟨2, _⟩ => rfl)
  rw [Read.val_main_v10_apply, Read.val_main_v8_apply, Read.val_main_v5_apply, e8, Read.val_main_v9_apply,
    Read.val_main_v7_apply, Read.val_main_v6_apply, e9, v4_eq, v4_eq, Ideal.subf_def]

/-- The sum over the five coordinates of the absolute differences: the L1 distance. -/
theorem v19_eq (i : Fin 1024) (k : Fin 50) (j : Fin 1024) :
    Read.val_main_v19 (F := Ideal) x0 x1 x2 (ix3 i k j) = Spec.l1 (Spec.act x0 x1 x2) i j k := by
  have e : ∀ d : Fin 5, Read.idx_main_v19 (ix3 i k j) d = ix4 i k d j := fun d =>
    funext fun a => Fin.ext (by match a with | ⟨0, _⟩ => rfl | ⟨1, _⟩ => rfl | ⟨2, _⟩ => rfl | ⟨3, _⟩ => rfl)
  rw [Read.val_main_v19_apply, Read.val_main_cst_apply, Ideal.ofBits_def, Ideal.ofBits_zero_f32, zero_add]
  refine Finset.sum_congr rfl fun d _ => ?_
  rw [e, Read.val_main_v18_apply, Ideal.hostAbsf_def, Ideal.absf_def, v10_eq]
  rfl

/-- The comparison of the two iotas, converted to a float, is 1 on the diagonal and 0 off it. -/
theorem cmp_eq (i j : Fin 1024) :
    FloatOps.uitofp (F := Ideal) .f32 (IntOp.cmpi .eq (IntOp.addi (BitVec.ofNat 32 i.val) 0#32) (BitVec.ofNat 32 j.val))
      = Spec.diag i j := by
  have hb : IntOp.cmpi .eq (IntOp.addi (BitVec.ofNat 32 i.val) 0#32) (BitVec.ofNat 32 j.val)
      = if i = j then 1#1 else 0#1 := by
    show BitVec.ofBool (BitVec.ofNat 32 i.val + 0#32 == BitVec.ofNat 32 j.val) = _
    rw [BitVec.add_zero]
    by_cases h : i = j
    · subst h; rw [if_pos rfl, beq_self_eq_true]; rfl
    · have hne : BitVec.ofNat 32 i.val ≠ BitVec.ofNat 32 j.val := by
        intro hh
        apply h; apply Fin.ext
        have h2 := congrArg BitVec.toNat hh
        have hi := i.isLt; have hj := j.isLt
        rw [BitVec.toNat_ofNat, BitVec.toNat_ofNat, Nat.mod_eq_of_lt (by omega), Nat.mod_eq_of_lt (by omega)] at h2
        exact h2
      rw [if_neg h, beq_eq_false_iff_ne.mpr hne]; rfl
  show (((IntOp.cmpi .eq (IntOp.addi (BitVec.ofNat 32 i.val) 0#32) (BitVec.ofNat 32 j.val)).toNat : ℝ) : EReal)
      = if i = j then 1 else 0
  rw [hb]
  by_cases h : i = j
  · rw [if_pos h, if_pos h]
    show (((1 : ℕ) : ℝ) : EReal) = 1
    rw [Nat.cast_one, EReal.coe_one]
  · rw [if_neg h, if_neg h]
    show (((0 : ℕ) : ℝ) : EReal) = 0
    rw [Nat.cast_zero, EReal.coe_zero]

/-- The diagonal term, broadcast along the features. -/
theorem v20_eq (i : Fin 1024) (k : Fin 50) (j : Fin 1024) :
    Read.val_main_v20 (F := Ideal) (ix3 i k j) = Spec.diag i j := by
  have e : Read.idx_main_v17 (Read.idx_main_v20 (ix3 i k j)) = ix2 i j :=
    funext fun a => Fin.ext (by match a with | ⟨0, _⟩ => rfl | ⟨1, _⟩ => rfl)
  rw [Read.val_main_v20_apply, Read.val_main_v17_apply, e, Read.val_main_v16_apply, Read.val_main_v15_apply,
    Read.val_main_v14_apply, Read.val_main_v11_apply, Read.val_main_v13_apply, Read.val_main_c_apply,
    Read.val_main_v12_apply]
  exact cmp_eq i j

/-- One row's contribution: the exponential of minus the distance plus the diagonal term. -/
theorem v23_eq (i : Fin 1024) (k : Fin 50) (j : Fin 1024) :
    Read.val_main_v23 (F := Ideal) x0 x1 x2 (ix3 i k j) = Spec.term (Spec.act x0 x1 x2) i j k := by
  rw [Read.val_main_v23_apply, Read.val_main_v22_apply, Read.val_main_v21_apply, v19_eq, v20_eq,
    Ideal.hostUnary_exp_def, Ideal.hostNegf_def, Ideal.negf_def, Ideal.addf_def]
  rfl

/-- The reference's features are the features of the specification. -/
theorem feat_eq : Read.val_main_v24 (F := Ideal) x0 x1 x2 = Spec.featArr x0 x1 x2 := by
  funext y
  obtain ⟨i, k, rfl⟩ : ∃ (i : Fin 1024) (k : Fin 50), y = ix2 i k := ⟨y 0, y 1, eq_ix2 y⟩
  have e : ∀ j : Fin 1024, Read.idx_main_v24 (ix2 i k) j = ix3 i k j := fun j =>
    funext fun a => Fin.ext (by match a with | ⟨0, _⟩ => rfl | ⟨1, _⟩ => rfl | ⟨2, _⟩ => rfl)
  rw [Read.val_main_v24_apply, Read.val_main_cst_0_apply, Ideal.ofBits_def, Ideal.ofBits_zero_f32, zero_add]
  show _ = ∑ j : Fin 1024, Spec.term (Spec.act x0 x1 x2) i j k
  refine Finset.sum_congr rfl fun j _ => ?_
  rw [e, v23_eq]

/-- The reference's result: x joined, along the columns, with the features of the specification. -/
theorem result_eq :
    (concatenate S1024x2098 1 [⟨S1024x2048, (x0)⟩, ⟨S1024x50, (Host.reduceAdd (F := Ideal) (Host.exp (F := Ideal) (Host.negf (F := Ideal) (addf (F := Ideal) (Host.reduceAdd (F := Ideal) (Host.absf (F := Ideal) (subf (F := Ideal) (broadcastInDim S1024x50x5x1024 ![0, 1, 2, 3] bcast_S1024x50x5x1_S1024x50x5x1024_0_1_2_3 (broadcastInDim S1024x50x5x1 ![0, 1, 2] bcast_S1024x50x5_S1024x50x5x1_0_1_2 (shapeCast _ (addf (F := Ideal) (Host.dotGeneral (F := Ideal) (φ₁ := .f32) (φ₂ := .f32) dot_S1024x2048_S2048x250_S1024x250_1_0_0_1_n_n none (x0) (x1)) (broadcastInDim S1024x250 ![0, 1] bcast_S1x250_S1024x250_0_1 (broadcastInDim S1x250 ![1] bcast_S250_S1x250_1 (x2)))) shapeCasts_S1024x250_S1024x50x5))) (broadcastInDim S1024x50x5x1024 ![0, 1, 2, 3] bcast_S1x50x5x1024_S1024x50x5x1024_0_1_2_3 (broadcastInDim S1x50x5x1024 ![1, 2, 3] bcast_S50x5x1024_S1x50x5x1024_1_2_3 (transpose S50x5x1024 [1, 2, 0] (shapeCast _ (addf (F := Ideal) (Host.dotGeneral (F := Ideal) (φ₁ := .f32) (φ₂ := .f32) dot_S1024x2048_S2048x250_S1024x250_1_0_0_1_n_n none (x0) (x1)) (broadcastInDim S1024x250 ![0, 1] bcast_S1x250_S1024x250_0_1 (broadcastInDim S1x250 ![1] bcast_S250_S1x250_1 (x2)))) shapeCasts_S1024x250_S1024x50x5) transposes_S1024x50x5_S50x5x1024_1_2_0))))) (constant (F := Ideal) S_ .f32 0x00000000#32) reducesTo_S1024x50x5x1024_S1024x50x1024_d2 h_S_) (broadcastInDim S1024x50x1024 ![0, 1, 2] bcast_S1024x1x1024_S1024x50x1024_0_1_2 (broadcastInDim S1024x1x1024 ![0, 2] bcast_S1024x1024_S1024x1x1024_0_2 (uitofp (F := Ideal) .f32 (cmpi .eq (addi (iotaInDim S1024x1024 32 0) (broadcastInDim S1024x1024 ![] bcast_S_S1024x1024 (constantI S_ 32 0#32))) (iotaInDim S1024x1024 32 1)))))))) (constant (F := Ideal) S_ .f32 0x00000000#32) reducesTo_S1024x50x1024_S1024x50_d2 h_S_)⟩] concatenates_S1024x2048_S1024x50_S1024x2098_d1
      : (⟨S1024x2098, .f32⟩ : BufTy).Contents (Elt Ideal))
      = concatenate S1024x2098 1 [⟨S1024x2048, x0⟩, ⟨S1024x50, Spec.featArr x0 x1 x2⟩]
          concatenates_S1024x2048_S1024x50_S1024x2098_d1 := by
  rw [Read.val_main_v25_eq]
  unfold Read.val_main_v25
  rw [feat_eq]

end Cert.ReferenceIdeal.RefValue

end
-- ==== Proof.KPayload.lean ====
/-
  The two kernel bodies' arithmetic read at an index, at the ideal values.

  The first body stores, at (p, q), the sum over k of x[p, k] * w[k, q] plus bias[q]: the change of
  format on the way into the product is the identity, the product accumulates into zero, and the
  bias row is repeated over the rows.

  The second body adds to its accumulator, at (p, q), the sum over the 128 lanes jj of
  exp (-(D jj + E jj)), where D jj adds the five absolute differences |a_d[0, p, q] - b_d[0, q, jj]|
  from the left and E jj is 1 where the row number and the lane number, each offset by its word,
  agree and 0 elsewhere. The value the accumulator is reset to is 0.
-/
import proofs.«157004_j87720412053850_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## The matmul-and-bias body at an index -/

theorem dot_lhs_0 (i : S256x250.Idx) (c : dot_S256x2048_S2048x250_S256x250_1_0_0_1_n_n.contr.Idx) :
    (dot_S256x2048_S2048x250_S256x250_1_0_0_1_n_n.lhsIdx i c 0).val = (i 0).val := by
  unfold DotDims.lhsIdx
  rw [dif_neg (show ¬(0 : Fin S256x2048.rank) ∈ dot_S256x2048_S2048x250_S256x250_1_0_0_1_n_n.lhsBatch by decide),
    dif_pos (show (0 : Fin S256x2048.rank) ∈ dot_S256x2048_S2048x250_S256x250_1_0_0_1_n_n.lhsNonContracting by decide)]
  rfl
theorem dot_lhs_1 (i : S256x250.Idx) (c : dot_S256x2048_S2048x250_S256x250_1_0_0_1_n_n.contr.Idx) :
    (dot_S256x2048_S2048x250_S256x250_1_0_0_1_n_n.lhsIdx i c 1).val = (c ⟨0, by decide⟩).val :=
  dot_S256x2048_S2048x250_S256x250_1_0_0_1_n_n.lhsIdx_val_of_single rfl i c
theorem dot_rhs_0 (i : S256x250.Idx) (c : dot_S256x2048_S2048x250_S256x250_1_0_0_1_n_n.contr.Idx) :
    (dot_S256x2048_S2048x250_S256x250_1_0_0_1_n_n.rhsIdx i c 0).val = (c ⟨0, by decide⟩).val :=
  dot_S256x2048_S2048x250_S256x250_1_0_0_1_n_n.rhsIdx_val_of_single rfl i c
theorem dot_rhs_1 (i : S256x250.Idx) (c : dot_S256x2048_S2048x250_S256x250_1_0_0_1_n_n.contr.Idx) :
    (dot_S256x2048_S2048x250_S256x250_1_0_0_1_n_n.rhsIdx i c 1).val = (i 1).val := by
  unfold DotDims.rhsIdx
  rw [dif_neg (show ¬(1 : Fin S2048x250.rank) ∈ dot_S256x2048_S2048x250_S256x250_1_0_0_1_n_n.rhsBatch by decide),
    dif_pos (show (1 : Fin S2048x250.rank) ∈ dot_S256x2048_S2048x250_S256x250_1_0_0_1_n_n.rhsNonContracting by decide)]
  rfl

/-- Entry (p, q) of the first body's stored value: row p of the first operand against column q of the second,
    plus the bias of column q. -/
theorem k0_pay1_apply (v0 : Vec Ideal S256x2048 .f32) (v2 : Vec Ideal S2048x250 .f32) (v5 : Vec Ideal S250 .f32)
    (p : Fin 256) (q : Fin 250) :
    k0_pay1 (F := Ideal) v0 v2 v5 (ix2 p q) = (∑ k : Fin 2048, v0 (ix2 p k) * v2 (ix2 k q)) + v5 (ix1 q) := by
  unfold k0_pay1
  rw [addf_apply]
  refine congrArg₂ (· + ·) ?_ ?_
  · refine (Ideal.matmul_constant_zero_apply dot_S256x2048_S2048x250_S256x250_1_0_0_1_n_n none _ _ (ix2 p q)).trans ?_
    rw [← Equiv.sum_comp (contrEquiv1 dot_S256x2048_S2048x250_S256x250_1_0_0_1_n_n 2048 rfl rfl).symm]
    refine Finset.sum_congr rfl fun k _ => ?_
    have hk := contrEquiv1_symm_val dot_S256x2048_S2048x250_S256x250_1_0_0_1_n_n 2048 rfl rfl k
    have el : dot_S256x2048_S2048x250_S256x250_1_0_0_1_n_n.lhsIdx (ix2 p q)
        ((contrEquiv1 dot_S256x2048_S2048x250_S256x250_1_0_0_1_n_n 2048 rfl rfl).symm k) = ix2 p k :=
      funext fun a => Fin.ext (by
        match a with
        | ⟨0, _⟩ => exact dot_lhs_0 _ _
        | ⟨1, _⟩ => exact (dot_lhs_1 _ _).trans hk)
    have er : dot_S256x2048_S2048x250_S256x250_1_0_0_1_n_n.rhsIdx (ix2 p q)
        ((contrEquiv1 dot_S256x2048_S2048x250_S256x250_1_0_0_1_n_n 2048 rfl rfl).symm k) = ix2 k q :=
      funext fun a => Fin.ext (by
        match a with
        | ⟨0, _⟩ => exact (dot_rhs_0 _ _).trans hk
        | ⟨1, _⟩ => exact dot_rhs_1 _ _)
    rw [el, er]
    rfl
  · exact (broadcastTo_1b_ab_apply _ _ p q).trans (shapeCast_a_1a_apply v5 _ (0 : Fin 1) q)

/-! ## The reset value -/

/-- The value the accumulator is reset to is 0 everywhere. -/
theorem k1_pay2_apply (p : Fin 128) (q : Fin 50) : k1_pay2 (F := Ideal) (ix2 p q) = 0 := by
  unfold k1_pay2
  refine (shapeCast_apply _ shapeCasts_S128x50_S128x50 (ix2 p q) (ix2 p q) rfl).trans ?_
  rw [broadcast_apply]
  exact Ideal.ofBits_zero_f32

/-! ## Layout operations of the pairwise body read at an index -/

section Layout
variable {α : Type}

/-- A [128, 50, 1] array spread along its unit axis reads, at (p, q, jj), the operand at (p, q, 0). -/
theorem bcast_col (x : S128x50x1.Idx → α) (h : S128x50x1.Broadcasts S128x50x128) (p : Fin 128) (q : Fin 50) (jj : Fin 128) :
    broadcastTo S128x50x128 x h (ix3 p q jj) = x (ix3 p q (0 : Fin 1)) :=
  broadcastTo_apply x h (ix3 p q jj) (ix3 p q (0 : Fin 1)) fun a => match a with
    | ⟨0, _⟩ => by show p.val = if (128 : Nat) = 1 then 0 else p.val; rw [if_neg (by decide)]
    | ⟨1, _⟩ => by show q.val = if (50 : Nat) = 1 then 0 else q.val; rw [if_neg (by decide)]
    | ⟨2, _⟩ => by show 0 = if (1 : Nat) = 1 then 0 else jj.val; rw [if_pos rfl]

/-- A [1, 50, 128] array spread along its leading unit axis reads, at (p, q, jj), the operand at (0, q, jj). -/
theorem bcast_row (x : S1x50x128.Idx → α) (h : S1x50x128.Broadcasts S128x50x128) (p : Fin 128) (q : Fin 50) (jj : Fin 128) :
    broadcastTo S128x50x128 x h (ix3 p q jj) = x (ix3 (0 : Fin 1) q jj) :=
  broadcastTo_apply x h (ix3 p q jj) (ix3 (0 : Fin 1) q jj) fun a => match a with
    | ⟨0, _⟩ => by show 0 = if (1 : Nat) = 1 then 0 else p.val; rw [if_pos rfl]
    | ⟨1, _⟩ => by show q.val = if (50 : Nat) = 1 then 0 else q.val; rw [if_neg (by decide)]
    | ⟨2, _⟩ => by show jj.val = if (128 : Nat) = 1 then 0 else jj.val; rw [if_neg (by decide)]

/-- A [128, 1, 128] array spread along its middle unit axis reads, at (p, q, jj), the operand at (p, 0, jj). -/
theorem bcast_mid (x : S128x1x128.Idx → α) (h : S128x1x128.Broadcasts S128x50x128) (p : Fin 128) (q : Fin 50) (jj : Fin 128) :
    broadcastTo S128x50x128 x h (ix3 p q jj) = x (ix3 p (0 : Fin 1) jj) :=
  broadcastTo_apply x h (ix3 p q jj) (ix3 p (0 : Fin 1) jj) fun a => match a with
    | ⟨0, _⟩ => by show p.val = if (128 : Nat) = 1 then 0 else p.val; rw [if_neg (by decide)]
    | ⟨1, _⟩ => by show 0 = if (1 : Nat) = 1 then 0 else q.val; rw [if_pos rfl]
    | ⟨2, _⟩ => by show jj.val = if (128 : Nat) = 1 then 0 else jj.val; rw [if_neg (by decide)]

/-- A [128, 50] array cast to [128, 50, 1] reads, at (p, q, u), the operand at (p, q). -/
theorem cast_col (x : S128x50.Idx → α) (h : S128x50.ShapeCasts S128x50x1) (p : Fin 128) (q : Fin 50) (u : Fin 1) :
    shapeCast S128x50x1 x h (ix3 p q u) = x (ix2 p q) :=
  shapeCast_apply x h (ix3 p q u) (ix2 p q) (by
    have hu : u.val = 0 := by omega
    rw [Shape.rowMajor_val_two, Shape.rowMajor_val_three]
    show p.val * 50 + q.val = (p.val * 50 + q.val) * 1 + u.val
    omega)

/-- A [128, 128] array cast to [128, 1, 128] reads, at (p, u, jj), the operand at (p, jj). -/
theorem cast_mid (x : S128x128.Idx → α) (h : S128x128.ShapeCasts S128x1x128) (p : Fin 128) (u : Fin 1) (jj : Fin 128) :
    shapeCast S128x1x128 x h (ix3 p u jj) = x (ix2 p jj) :=
  shapeCast_apply x h (ix3 p u jj) (ix2 p jj) (by
    have hu : u.val = 0 := by omega
    rw [Shape.rowMajor_val_two, Shape.rowMajor_val_three]
    show p.val * 128 + jj.val = (p.val * 1 + u.val) * 128 + jj.val
    omega)

/-- A [128, 50] array cast to its own shape is itself. -/
theorem cast_self (x : S128x50.Idx → α) (h : S128x50.ShapeCasts S128x50) (p : Fin 128) (q : Fin 50) :
    shapeCast S128x50 x h (ix2 p q) = x (ix2 p q) :=
  shapeCast_apply x h (ix2 p q) (ix2 p q) rfl

end Layout

/-! ## The pieces of the pairwise body at an index -/

/-- |t| on the extended reals, as the absolute-value operation reads at the ideal values. -/
def eabs' (t : EReal) : EReal := max t (-t)

theorem eabs'_def (t : EReal) : eabs' t = max t (-t) := rfl

/-- An absolute value at an index. -/
theorem absf_at {s : Shape} {φ : FTy} (x : FVec Ideal s φ) (i : s.Idx) : absf x i = eabs' (x i) := rfl
/-- An exponential at an index. -/
theorem exp_at {s : Shape} {φ : FTy} (x : FVec Ideal s φ) (i : s.Idx) : exp x i = Ideal.exp (x i) := rfl

/-- A left slab [1, 128, 50] spread over the lanes reads, at (p, q, jj), its entry (0, p, q). -/
theorem slabA_apply (a : Vec Ideal S1x128x50 .f32) (p : Fin 128) (q : Fin 50) (jj : Fin 128) :
    broadcastTo S128x50x128 (shapeCast S128x50x1 (shapeCast S128x50 a shapeCasts_S1x128x50_S128x50)
      shapeCasts_S128x50_S128x50x1) broadcasts_S128x50x1_S128x50x128 (ix3 p q jj) = a (ix3 (0 : Fin 1) p q) :=
  (bcast_col _ _ p q jj).trans ((cast_col _ _ p q 0).trans (shapeCast_1ab_ab_apply a _ p q))

/-- A right slab [1, 50, 128] spread over the rows reads, at (p, q, jj), its entry (0, q, jj). -/
theorem slabB_apply (b : Vec Ideal S1x50x128 .f32) (p : Fin 128) (q : Fin 50) (jj : Fin 128) :
    broadcastTo S128x50x128 (shapeCast S1x50x128 (shapeCast S50x128 b shapeCasts_S1x50x128_S50x128)
      shapeCasts_S50x128_S1x50x128) broadcasts_S1x50x128_S128x50x128 (ix3 p q jj) = b (ix3 (0 : Fin 1) q jj) :=
  (bcast_row _ _ p q jj).trans ((shapeCast_ab_1ab_apply _ _ 0 q jj).trans (shapeCast_1ab_ab_apply b _ q jj))

/-- The difference of a spread left slab and a spread right slab at (p, q, jj). -/
theorem diff_apply (a : Vec Ideal S1x128x50 .f32) (b : Vec Ideal S1x50x128 .f32) (p : Fin 128) (q : Fin 50) (jj : Fin 128) :
    subf (F := Ideal) (φ := .f32)
      (broadcastTo S128x50x128 (shapeCast S128x50x1 (shapeCast S128x50 a shapeCasts_S1x128x50_S128x50)
        shapeCasts_S128x50_S128x50x1) broadcasts_S128x50x1_S128x50x128)
      (broadcastTo S128x50x128 (shapeCast S1x50x128 (shapeCast S50x128 b shapeCasts_S1x50x128_S50x128)
        shapeCasts_S50x128_S1x50x128) broadcasts_S1x50x128_S128x50x128) (ix3 p q jj)
      = a (ix3 (0 : Fin 1) p q) - b (ix3 (0 : Fin 1) q jj) := by
  rw [subf_apply, slabA_apply, slabB_apply]

/-- Its absolute value at (p, q, jj). -/
theorem absdiff_apply (a : Vec Ideal S1x128x50 .f32) (b : Vec Ideal S1x50x128 .f32) (p : Fin 128) (q : Fin 50) (jj : Fin 128) :
    absf (F := Ideal) (φ := .f32) (subf (F := Ideal) (φ := .f32)
      (broadcastTo S128x50x128 (shapeCast S128x50x1 (shapeCast S128x50 a shapeCasts_S1x128x50_S128x50)
        shapeCasts_S128x50_S128x50x1) broadcasts_S128x50x1_S128x50x128)
      (broadcastTo S128x50x128 (shapeCast S1x50x128 (shapeCast S50x128 b shapeCasts_S1x50x128_S50x128)
        shapeCasts_S50x128_S1x50x128) broadcasts_S1x50x128_S128x50x128)) (ix3 p q jj)
      = eabs' (a (ix3 (0 : Fin 1) p q) - b (ix3 (0 : Fin 1) q jj)) := by
  rw [absf_at, diff_apply]

/-! ## The diagonal mark -/

/-- 1 where the two words plus the row and lane numbers agree, 0 elsewhere. -/
def eqw (v3 v4 : BitVec 32) (p jj : Fin 128) : EReal :=
  if v3 + BitVec.ofNat 32 p.val = v4 + BitVec.ofNat 32 jj.val then 1 else 0

/-- A 32-bit equality test widened to a word and converted to a float is 1 or 0. -/
theorem sitofp_cmpi_eq (x y : BitVec 32) :
    (FloatOps.sitofp (F := Ideal) .f32 ((IntOp.cmpi .eq x y).setWidth 32) : EReal) = if x = y then 1 else 0 := by
  by_cases h : x = y
  · have hb : IntOp.cmpi .eq x y = 1#1 := by
      show BitVec.ofBool (x == y) = 1#1
      rw [beq_iff_eq.mpr h]; rfl
    rw [hb, if_pos h]
    show (((BitVec.setWidth 32 1#1).toInt : ℝ) : EReal) = 1
    have e : (BitVec.setWidth 32 1#1).toInt = 1 := by decide
    rw [e, Int.cast_one, EReal.coe_one]
  · have hb : IntOp.cmpi .eq x y = 0#1 := by
      show BitVec.ofBool (x == y) = 0#1
      rw [beq_eq_false_iff_ne.mpr h]; rfl
    rw [hb, if_neg h]
    show (((BitVec.setWidth 32 0#1).toInt : ℝ) : EReal) = 0
    have e : (BitVec.setWidth 32 0#1).toInt = 0 := by decide
    rw [e, Int.cast_zero, EReal.coe_zero]

/-- The row-number vector at (p, jj) is p. -/
theorem iota_row_apply (p jj : Fin 128) :
    iota .tc S128x128 32 [0] iota_S128x128_d0_w32 (ix2 p jj) = BitVec.ofNat 32 p.val := by
  show BitVec.ofNat 32 (0 * 128 + p.val) = _
  rw [Nat.zero_mul, Nat.zero_add]

/-- The lane-number vector at (p, jj) is jj. -/
theorem iota_lane_apply (p jj : Fin 128) :
    iota .tc S128x128 32 [1] iota_S128x128_d1_w32 (ix2 p jj) = BitVec.ofNat 32 jj.val := by
  show BitVec.ofNat 32 (0 * 128 + jj.val) = _
  rw [Nat.zero_mul, Nat.zero_add]

/-- The diagonal mark spread over the features reads, at (p, q, jj), 1 where v3 + p = v4 + jj as words and 0 elsewhere. -/
theorem mask_apply (v3 v4 : BitVec 32) (p : Fin 128) (q : Fin 50) (jj : Fin 128) :
    broadcastTo S128x50x128 (shapeCast S128x1x128 (sitofp (F := Ideal) .f32 (extui 32 (cmpi .eq
        (addi (broadcast S128x128 v3) (iota .tc S128x128 32 [0] iota_S128x128_d0_w32))
        (addi (broadcast S128x128 v4) (iota .tc S128x128 32 [1] iota_S128x128_d1_w32))) natLt_1_32))
      shapeCasts_S128x128_S128x1x128) broadcasts_S128x1x128_S128x50x128 (ix3 p q jj) = eqw v3 v4 p jj := by
  refine (bcast_mid _ _ p q jj).trans ((cast_mid _ _ p 0 jj).trans ?_)
  rw [sitofp_apply, extui_apply]
  show FloatOps.sitofp (F := Ideal) .f32 ((IntOp.cmpi .eq
      (v3 + iota .tc S128x128 32 [0] iota_S128x128_d0_w32 (ix2 p jj))
      (v4 + iota .tc S128x128 32 [1] iota_S128x128_d1_w32 (ix2 p jj))).setWidth 32) = _
  rw [iota_row_apply, iota_lane_apply, sitofp_cmpi_eq]
  rfl

/-! ## The lane sum -/

/-- The sum over the lanes of a [128, 50, 128] array, at (p, q). -/
theorem lane_sum_apply (src : FVec Ideal S128x50x128 .f32) (p : Fin 128) (q : Fin 50) :
    multiReduction .add [2] S128x50 src 0x00000000#32 reduces_S128x50x128_S128x50 (.inl rfl) rfl (ix2 p q)
      = ∑ jj : Fin 128, src (ix3 p q jj) := by
  refine (Ideal.multiReduction_add_single src 0x00000000#32 reduces_S128x50x128_S128x50 (.inl rfl) rfl (ix2 p q)).trans ?_
  refine Finset.sum_congr rfl fun jj _ => congrArg src ?_
  funext c
  refine Fin.ext ?_
  match c with
  | ⟨0, _⟩ => rfl
  | ⟨1, _⟩ => rfl
  | ⟨2, _⟩ => rfl

/-! ## The payloads of the pairwise body at an index -/

/-- The first two absolute differences, added. -/
theorem k1_pay3_apply (a0 : Vec Ideal S1x128x50 .f32) (b0 : Vec Ideal S1x50x128 .f32) (a1 : Vec Ideal S1x128x50 .f32)
    (b1 : Vec Ideal S1x50x128 .f32) (p : Fin 128) (q : Fin 50) (jj : Fin 128) :
    k1_pay3 (F := Ideal) a0 b0 a1 b1 (ix3 p q jj)
      = eabs' (a0 (ix3 (0 : Fin 1) p q) - b0 (ix3 (0 : Fin 1) q jj))
        + eabs' (a1 (ix3 (0 : Fin 1) p q) - b1 (ix3 (0 : Fin 1) q jj)) := by
  unfold k1_pay3
  rw [addf_apply, absdiff_apply, absdiff_apply]

/-- The third difference, before its absolute value is taken. -/
theorem k1_pay4_apply (a2 : Vec Ideal S1x128x50 .f32) (b2 : Vec Ideal S1x50x128 .f32) (p : Fin 128) (q : Fin 50) (jj : Fin 128) :
    k1_pay4 (F := Ideal) a2 b2 (ix3 p q jj) = a2 (ix3 (0 : Fin 1) p q) - b2 (ix3 (0 : Fin 1) q jj) := by
  unfold k1_pay4
  exact diff_apply a2 b2 p q jj

/-- The stored value is the accumulated one. -/
theorem k1_pay1_apply (v : FVec Ideal S128x50 .f32) (p : Fin 128) (q : Fin 50) :
    k1_pay1 (F := Ideal) v (ix2 p q) = v (ix2 p q) := by
  unfold k1_pay1
  exact cast_self v _ p q

/-- The accumulation step over the two carried arrays: the accumulator plus the lane sum of the exponentials. -/
theorem k1_pay5_apply (v3 v4 : BitVec 32) (v25 v34 : FVec Ideal S128x50x128 .f32)
    (a3 : Vec Ideal S1x128x50 .f32) (b3 : Vec Ideal S1x50x128 .f32) (a4 : Vec Ideal S1x128x50 .f32) (b4 : Vec Ideal S1x50x128 .f32)
    (acc : Vec Ideal S128x50 .f32) (p : Fin 128) (q : Fin 50) :
    k1_pay5 (F := Ideal) v3 v4 v25 v34 a3 b3 a4 b4 acc (ix2 p q)
      = acc (ix2 p q) + ∑ jj : Fin 128, Ideal.exp (-(v25 (ix3 p q jj) + eabs' (v34 (ix3 p q jj))
          + eabs' (a3 (ix3 (0 : Fin 1) p q) - b3 (ix3 (0 : Fin 1) q jj))
          + eabs' (a4 (ix3 (0 : Fin 1) p q) - b4 (ix3 (0 : Fin 1) q jj)) + eqw v3 v4 p jj)) := by
  unfold k1_pay5
  rw [addf_apply]
  refine congrArg (acc (ix2 p q) + ·) ?_
  refine (lane_sum_apply _ p q).trans ?_
  refine Finset.sum_congr rfl fun jj _ => ?_
  rw [exp_at, subf_apply, broadcast_apply, addf_apply, addf_apply, addf_apply, addf_apply,
    absdiff_apply, absdiff_apply, absf_at, mask_apply]
  show Ideal.exp (Ideal.ofBits .f32 0x00000000#32 - _) = _
  rw [Ideal.ofBits_zero_f32, zero_sub]

/-- THE PAIRWISE STEP at (p, q): the accumulator plus, over the 128 lanes, the exponential of minus the five
    absolute differences (added from the left) plus the diagonal mark. -/
theorem k1_step_apply (v3 v4 : BitVec 32)
    (a0 a1 a2 a3 a4 : Vec Ideal S1x128x50 .f32) (b0 b1 b2 b3 b4 : Vec Ideal S1x50x128 .f32)
    (acc : Vec Ideal S128x50 .f32) (p : Fin 128) (q : Fin 50) :
    k1_pay1 (F := Ideal) (k1_pay5 v3 v4 (k1_pay3 a0 b0 a1 b1) (k1_pay4 a2 b2) a3 b3 a4 b4 acc) (ix2 p q)
      = acc (ix2 p q) + ∑ jj : Fin 128, Ideal.exp (-(
          eabs' (a0 (ix3 (0 : Fin 1) p q) - b0 (ix3 (0 : Fin 1) q jj))
          + eabs' (a1 (ix3 (0 : Fin 1) p q) - b1 (ix3 (0 : Fin 1) q jj))
          + eabs' (a2 (ix3 (0 : Fin 1) p q) - b2 (ix3 (0 : Fin 1) q jj))
          + eabs' (a3 (ix3 (0 : Fin 1) p q) - b3 (ix3 (0 : Fin 1) q jj))
          + eabs' (a4 (ix3 (0 : Fin 1) p q) - b4 (ix3 (0 : Fin 1) q jj))
          + eqw v3 v4 p jj)) := by
  rw [k1_pay1_apply, k1_pay5_apply]
  refine congrArg (acc (ix2 p q) + ·) (Finset.sum_congr rfl fun jj _ => ?_)
  rw [k1_pay3_apply, k1_pay4_apply]

/-! ## The diagonal mark over block numbers -/

/-- With the two words 128 times a block number below 8, the words agree exactly when the positions
    block * 128 + offset agree: nothing wraps below 1024. -/
theorem eqw_blocks (ni j : ℕ) (hni : ni < 8) (hj : j < 8) (p jj : Fin 128) :
    eqw (Scalar.muli (BitVec.ofNat 32 ni) 128#32) (Scalar.muli (BitVec.ofNat 32 j) 128#32) p jj
      = if ni * 128 + p.val = j * 128 + jj.val then 1 else 0 := by
  unfold eqw
  have hp := p.isLt
  have hjj := jj.isLt
  have key : (Scalar.muli (BitVec.ofNat 32 ni) 128#32 + BitVec.ofNat 32 p.val
      = Scalar.muli (BitVec.ofNat 32 j) 128#32 + BitVec.ofNat 32 jj.val) ↔ ni * 128 + p.val = j * 128 + jj.val := by
    rw [← BitVec.toNat_inj]
    show ((BitVec.ofNat 32 ni * 128#32 + BitVec.ofNat 32 p.val).toNat
      = (BitVec.ofNat 32 j * 128#32 + BitVec.ofNat 32 jj.val).toNat) ↔ _
    simp only [BitVec.toNat_add, BitVec.toNat_mul, BitVec.toNat_ofNat]
    omega
  by_cases h : ni * 128 + p.val = j * 128 + jj.val
  · rw [if_pos h, if_pos (key.mpr h)]
  · rw [if_neg h, if_neg (fun h' => h (key.mp h'))]

/-- The same over block numbers in `Fin 8`. -/
theorem eqw_blocks_fin (ni j : Fin 8) (p jj : Fin 128) :
    eqw (Scalar.muli (BitVec.ofNat 32 ni.val) 128#32) (Scalar.muli (BitVec.ofNat 32 j.val) 128#32) p jj
      = if ni.val * 128 + p.val = j.val * 128 + jj.val then 1 else 0 :=
  eqw_blocks ni.val j.val ni.isLt j.isLt p jj

end Cert.KernelIdeal.Pay
end
-- ==== Proof.SumBlocks.lean ====
/-
  Regrouping finite sums in a commutative additive monoid.

  Five terms added from the left are the sum over Fin 5. A sum over 8 blocks of 128 places is the
  sum over the 1024 positions, position j being place j % 128 of block j / 128. A value built by
  adding the blocks one after another, starting from 0, is the sum of the blocks added so far; after
  the last block it is the sum over all positions.
-/
import Mathlib.Algebra.BigOperators.Fin
import Mathlib.Logic.Equiv.Fin.Basic

namespace Cert.SumBlocks

open scoped BigOperators

variable {M : Type*} [AddCommMonoid M]

/-- Five terms added from the left are the sum over `Fin 5`. -/
theorem add5_eq_sum (e : Fin 5 → M) : e 0 + e 1 + e 2 + e 3 + e 4 = ∑ d : Fin 5, e d :=
  (Fin.sum_univ_five e).symm

/-- A double sum over `m` blocks of `n` places is the single sum over `m * n` positions: position `j` is place
    `j % n` of block `j / n`. -/
theorem sum_blocks_general (m n : ℕ) (g : Fin m → Fin n → M) :
    ∑ b : Fin m, ∑ jj : Fin n, g b jj = ∑ j : Fin (m * n), g j.divNat j.modNat :=
  calc ∑ b : Fin m, ∑ jj : Fin n, g b jj
      = ∑ x : Fin m × Fin n, g x.1 x.2 := (Fintype.sum_prod_type' g).symm
    _ = ∑ j : Fin (m * n), g (finProdFinEquiv.symm j).1 (finProdFinEquiv.symm j).2 :=
        (Equiv.sum_comp finProdFinEquiv.symm (fun x : Fin m × Fin n => g x.1 x.2)).symm
    _ = ∑ j : Fin (m * n), g j.divNat j.modNat := rfl

/-- Eight blocks of 128 places are the 1024 positions. -/
theorem sum_blocks (g : Fin 8 → Fin 128 → M) :
    ∑ b : Fin 8, ∑ jj : Fin 128, g b jj
      = ∑ j : Fin 1024, g ⟨j.val / 128, by have := j.isLt; omega⟩ ⟨j.val % 128, Nat.mod_lt _ (by decide)⟩ :=
  sum_blocks_general 8 128 g

/-- The same for a function of the position: block `b`, place `jj` is position `b * 128 + jj`. -/
theorem sum_blocks_flat (f : Fin 1024 → M) :
    ∑ b : Fin 8, ∑ jj : Fin 128, f ⟨b.val * 128 + jj.val, by have := b.isLt; have := jj.isLt; omega⟩
      = ∑ j : Fin 1024, f j := by
  rw [sum_blocks (fun b jj => f ⟨b.val * 128 + jj.val, by have := b.isLt; have := jj.isLt; omega⟩)]
  refine Finset.sum_congr rfl fun j _ => congrArg f (Fin.ext ?_)
  show j.val / 128 * 128 + j.val % 128 = j.val
  omega

/-- Adding blocks one after another from 0: after block `n` the value is the sum of blocks `0 … n`. -/
theorem fold_eq_sum_range (B S : ℕ → M) (N : ℕ) (h0 : S 0 = 0 + B 0)
    (hs : ∀ n, n + 1 < N → S (n + 1) = S n + B (n + 1)) :
    ∀ n, n < N → S n = ∑ b ∈ Finset.range (n + 1), B b := by
  intro n
  induction n with
  | zero => intro _; rw [h0, zero_add, Finset.sum_range_one]
  | succ k ih => intro hk; rw [hs k hk, ih (by omega), Finset.sum_range_succ _ (k + 1)]

/-- Adding the eight blocks of 128 positions one after another from 0 gives the sum over all 1024 positions. -/
theorem fold_blocks_eq_sum (f : Fin 1024 → M) (S : ℕ → M)
    (h0 : S 0 = 0 + ∑ jj : Fin 128, f ⟨0 * 128 + jj.val, by have := jj.isLt; omega⟩)
    (hs : ∀ n (hn : n + 1 < 8),
      S (n + 1) = S n + ∑ jj : Fin 128, f ⟨(n + 1) * 128 + jj.val, by have := jj.isLt; omega⟩) :
    S 7 = ∑ j : Fin 1024, f j := by
  let B : ℕ → M := fun b =>
    if hb : b < 8 then ∑ jj : Fin 128, f ⟨b * 128 + jj.val, by have := jj.isLt; omega⟩ else 0
  have hB : ∀ b (hb : b < 8),
      B b = ∑ jj : Fin 128, f ⟨b * 128 + jj.val, by have := jj.isLt; omega⟩ := fun b hb => dif_pos hb
  have h7 : S 7 = ∑ b ∈ Finset.range 8, B b :=
    fold_eq_sum_range B S 8 (by rw [h0, hB 0 (by omega)]) (fun n hn => by rw [hs n hn, hB (n + 1) hn]) 7 (by omega)
  rw [h7, Finset.sum_range, ← sum_blocks_flat f]
  exact Finset.sum_congr rfl fun b _ => hB b.val b.isLt

end Cert.SumBlocks
-- ==== Proof.PairSpec.lean ====
/-
  The pairwise features as a function of the two layouts of the activations the second kernel region reads:
  P : [5, 1024, 50] (coordinate, row, feature) and Q : [5, 50, 1024] (coordinate, feature, row). Row i, feature k:
  the sum over all rows j of exp (-( (∑ d, |P d i k - Q d k j|) + [i = j] )).
-/
import proofs.«157004_j87720412053850_1_alg».proof.Proof.Spec

noncomputable section

namespace Cert.Spec

open Idealize.ShloMosaic Idealize.ShloMosaic.ValueIdx

def pairFeat (P : (⟨3, ![5, 1024, 50]⟩ : Shape).Idx → EReal) (Q : (⟨3, ![5, 50, 1024]⟩ : Shape).Idx → EReal)
    (i : Fin 1024) (k : Fin 50) : EReal :=
  ∑ j : Fin 1024, Ideal.exp (-((∑ d : Fin 5, eabs (P (ix3 d i k) - Q (ix3 d k j))) + diag i j))

end Cert.Spec

end
-- ==== Proof.PairValue.lean ====
/-
  The second region's result array at the ideal values.

  Write P for the left array [5, 1024, 50] and Q for the right array [5, 50, 1024] as the region finds them. At grid
  point t = 8 ni + j the body holds rows 128 ni … 128 ni + 127 of P and columns 128 j … 128 j + 127 of Q, and adds to
  entry (p, q) of the accumulator the 128 contributions exp (-(∑ d, |P[d, 128 ni + p, q] - Q[d, q, 128 j + jj]| + [row = column])).
  The accumulator starts from 0 at j = 0, so after j = 7 it holds the sum over all 1024 columns: eight blocks of 128
  added one after another are the sum over the 1024 positions. That point writes the accumulator back as rows
  128 ni … 128 ni + 127 of the result, and the eight writing points cover the result's rows.
-/
import proofs.«157004_j87720412053850_1_alg».proof.Proof.Region1I
import proofs.«157004_j87720412053850_1_alg».proof.Proof.KPayload
import proofs.«157004_j87720412053850_1_alg».proof.Proof.SumBlocks
import proofs.«157004_j87720412053850_1_alg».proof.Proof.PairSpec
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay

/-- One column's contribution, over row and column NUMBERS (0 outside the arrays, never read). -/
def pairTermN (P : (⟨3, ![5, 1024, 50]⟩ : Shape).Idx → EReal) (Q : (⟨3, ![5, 50, 1024]⟩ : Shape).Idx → EReal)
    (r : ℕ) (k : Fin 50) (j : ℕ) : EReal :=
  if h : r < 1024 ∧ j < 1024 then
    Ideal.exp (-((∑ d : Fin 5, Cert.Spec.eabs (P (ix3 d (⟨r, h.1⟩ : Fin 1024) k) - Q (ix3 d k (⟨j, h.2⟩ : Fin 1024))))
      + Cert.Spec.diag (⟨r, h.1⟩ : Fin 1024) (⟨j, h.2⟩ : Fin 1024)))
  else 0

theorem pairFeat_eq_sum (P : (⟨3, ![5, 1024, 50]⟩ : Shape).Idx → EReal) (Q : (⟨3, ![5, 50, 1024]⟩ : Shape).Idx → EReal)
    (i : Fin 1024) (k : Fin 50) : Cert.Spec.pairFeat P Q i k = ∑ j : Fin 1024, pairTermN P Q i.val k j.val := by
  unfold Cert.Spec.pairFeat
  refine Finset.sum_congr rfl fun j _ => ?_
  unfold pairTermN
  rw [dif_pos ⟨i.isLt, j.isLt⟩]

/-! ## One point's accumulation at an index -/

/-- Slab o of a left block, at (0, p, q), is the block at (o, p, q). -/
theorem ld_slabA (x0 : Vec Ideal S5x128x50 .f32) (o : ℕ) (ho : o < 5)
    (inb : ∀ a, (![o, 0, 0] : Fin S5x128x50.rank → ℕ) a + S1x128x50.size a ≤ S5x128x50.size a) (p : Fin 128) (q : Fin 50) :
    View.ld x0 (Rect.unit (s := S5x128x50) ![o, 0, 0] S1x128x50.size inb) (ix3 (0 : Fin 1) p q)
      = x0 (ix3 (⟨o, ho⟩ : Fin 5) p q) := by
  show x0 _ = x0 _
  refine congrArg x0 (funext fun a => Fin.ext ?_)
  match a with
  | ⟨0, _⟩ => show o + 1 * 0 = o; omega
  | ⟨1, _⟩ => show 0 + 1 * p.val = p.val; omega
  | ⟨2, _⟩ => show 0 + 1 * q.val = q.val; omega

/-- Slab o of a right block, at (0, q, jj), is the block at (o, q, jj). -/
theorem ld_slabB (x1 : Vec Ideal S5x50x128 .f32) (o : ℕ) (ho : o < 5)
    (inb : ∀ a, (![o, 0, 0] : Fin S5x50x128.rank → ℕ) a + S1x50x128.size a ≤ S5x50x128.size a) (q : Fin 50) (jj : Fin 128) :
    View.ld x1 (Rect.unit (s := S5x50x128) ![o, 0, 0] S1x50x128.size inb) (ix3 (0 : Fin 1) q jj)
      = x1 (ix3 (⟨o, ho⟩ : Fin 5) q jj) := by
  show x1 _ = x1 _
  refine congrArg x1 (funext fun a => Fin.ext ?_)
  match a with
  | ⟨0, _⟩ => show o + 1 * 0 = o; omega
  | ⟨1, _⟩ => show 0 + 1 * q.val = q.val; omega
  | ⟨2, _⟩ => show 0 + 1 * jj.val = jj.val; omega

/-- ONE POINT'S ACCUMULATION at (p, q): the accumulator there plus, over the block's 128 columns, the exponential of
    minus the five coordinates' absolute differences plus the diagonal mark of the point's row and column numbers. -/
theorem accum_apply (i : grid1.Coords) (x0 : Vec Ideal S5x128x50 .f32) (x1 : Vec Ideal S5x50x128 .f32)
    (s : Vec Ideal S128x50 .f32) (p : Fin 128) (q : Fin 50) :
    accum (F := Ideal) i x0 x1 s (ix2 p q)
      = s (ix2 p q) + ∑ jj : Fin 128, Ideal.exp (-((∑ d : Fin 5, Cert.Spec.eabs (x0 (ix3 d p q) - x1 (ix3 d q jj)))
          + (if (i 0).val * 128 + p.val = (i 1).val * 128 + jj.val then 1 else 0))) := by
  unfold accum
  rw [k1_step_apply]
  refine congrArg (s (ix2 p q) + ·) (Finset.sum_congr rfl fun jj _ => ?_)
  rw [eqw_blocks (i 0).val (i 1).val (i 0).isLt (i 1).isLt p jj]
  rw [ld_slabA x0 0 (by decide), ld_slabA x0 1 (by decide), ld_slabA x0 2 (by decide), ld_slabA x0 3 (by decide),
    ld_slabA x0 4 (by decide), ld_slabB x1 0 (by decide), ld_slabB x1 1 (by decide), ld_slabB x1 2 (by decide),
    ld_slabB x1 3 (by decide), ld_slabB x1 4 (by decide)]
  rw [← Cert.SumBlocks.add5_eq_sum (fun d : Fin 5 => Cert.Spec.eabs (x0 (ix3 d p q) - x1 (ix3 d q jj)))]
  rfl

/-! ## The schedule, decided over the 64 grid points -/

/-- Each window's block index, and the point's coordinates, at point t = 8 ni + j. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = 0 ∧ win1_1.index t (2 : Fin 3) = t.val % 8
    ∧ win1_2.index t (0 : Fin 2) = t.val / 8 ∧ win1_2.index t (1 : Fin 2) = 0
    ∧ (grid1.coords t 0).val = t.val / 8 ∧ (grid1.coords t 1).val = t.val % 8 :=
  (by decide +kernel : ∀ t : Fin grid1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = 0 ∧ win1_1.index t (2 : Fin 3) = t.val % 8
    ∧ win1_2.index t (0 : Fin 2) = t.val / 8 ∧ win1_2.index t (1 : Fin 2) = 0
    ∧ (grid1.coords t 0).val = t.val / 8 ∧ (grid1.coords t 1).val = t.val % 8)

section

variable (V : (c : Dev nD) → (b : Ref sig .tc) → Buf (Elt Ideal) ((c : Thread nD τ).loc b))

/-! ## The input blocks read at an index -/

/-- The left window's block at point t, at (d, p, q): the left array at row 128 (t / 8) + p. -/
theorem blk1_0_apply (c : Dev nD) (t : Fin cfg1.N) (d : Fin 5) (p : Fin 128) (q : Fin 50) :
    (blk1 V c 0 t : Vec Ideal S5x128x50 .f32) (ix3 d p q)
      = (V c main_v2 : S5x1024x50.Idx → EReal) (ix3 d (⟨t.val / 8 * 128 + p.val, by
          have h : t.val < 64 := lt_of_lt_of_eq t.isLt (show cfg1.N = 64 from N_1)
          have := p.isLt; omega⟩ : Fin 1024) q) := by
  obtain ⟨e0, e1, e2, -⟩ := idx_facts1 t
  show V c main_v2 (((cfg1.win 0).blk t).view.emb (ix3 d p q)) = V c main_v2 _
  refine congrArg (V c main_v2) (funext fun a => Fin.ext ?_)
  match a with
  | ⟨0, _⟩ => show win1_0.index t (0 : Fin 3) * 5 + 1 * d.val = d.val; rw [e0]; omega
  | ⟨1, _⟩ => show win1_0.index t (1 : Fin 3) * 128 + 1 * p.val = t.val / 8 * 128 + p.val; rw [e1]; omega
  | ⟨2, _⟩ => show win1_0.index t (2 : Fin 3) * 50 + 1 * q.val = q.val; rw [e2]; omega

/-- The right window's block at point t, at (d, q, jj): the right array at column 128 (t % 8) + jj. -/
theorem blk1_1_apply (c : Dev nD) (t : Fin cfg1.N) (d : Fin 5) (q : Fin 50) (jj : Fin 128) :
    (blk1 V c 1 t : Vec Ideal S5x50x128 .f32) (ix3 d q jj)
      = (V c main_v3 : S5x50x1024.Idx → EReal) (ix3 d q (⟨t.val % 8 * 128 + jj.val, by
          have := jj.isLt; omega⟩ : Fin 1024)) := by
  obtain ⟨-, -, -, e3, e4, e5, -⟩ := idx_facts1 t
  show V c main_v3 (((cfg1.win 1).blk t).view.emb (ix3 d q jj)) = V c main_v3 _
  refine congrArg (V c main_v3) (funext fun a => Fin.ext ?_)
  match a with
  | ⟨0, _⟩ => show win1_1.index t (0 : Fin 3) * 5 + 1 * d.val = d.val; rw [e3]; omega
  | ⟨1, _⟩ => show win1_1.index t (1 : Fin 3) * 50 + 1 * q.val = q.val; rw [e4]; omega
  | ⟨2, _⟩ => show win1_1.index t (2 : Fin 3) * 128 + 1 * jj.val = t.val % 8 * 128 + jj.val; rw [e5]; omega

/-! ## One point's accumulation over the point's own blocks -/

/-- At point n the body adds, at (p, q), the 128 contributions of row 128 (n / 8) + p against columns
    128 (n % 8) … 128 (n % 8) + 127. -/
theorem accum_blk (c : Dev nD) (n : ℕ) (hn : n < cfg1.N) (s : Vec Ideal S128x50 .f32) (p : Fin 128) (q : Fin 50) :
    accum (F := Ideal) (grid1.coords ⟨n, hn⟩) (blk1 V c 0 ⟨n, hn⟩) (blk1 V c 1 ⟨n, hn⟩) s (ix2 p q)
      = s (ix2 p q) + ∑ jj : Fin 128,
          pairTermN (V c main_v2) (V c main_v3) (n / 8 * 128 + p.val) q (n % 8 * 128 + jj.val) := by
  have h64 : n < 64 := lt_of_lt_of_eq hn (show cfg1.N = 64 from N_1)
  obtain ⟨-, -, -, -, -, -, -, -, e8, e9⟩ := idx_facts1 ⟨n, hn⟩
  have e8' : (grid1.coords ⟨n, hn⟩ 0).val = n / 8 := e8
  have e9' : (grid1.coords ⟨n, hn⟩ 1).val = n % 8 := e9
  refine (accum_apply (grid1.coords ⟨n, hn⟩) (blk1 V c 0 ⟨n, hn⟩) (blk1 V c 1 ⟨n, hn⟩) s p q).trans ?_
  refine congrArg (s (ix2 p q) + ·) (Finset.sum_congr rfl fun jj _ => ?_)
  have hp := p.isLt
  have hjj := jj.isLt
  have h1 : n / 8 * 128 + p.val < 1024 := by omega
  have h2 : n % 8 * 128 + jj.val < 1024 := by omega
  have hb0 : ∀ d : Fin 5, (blk1 V c 0 ⟨n, hn⟩ : Vec Ideal S5x128x50 .f32) (ix3 d p q)
      = (V c main_v2 : S5x1024x50.Idx → EReal) (ix3 d (⟨n / 8 * 128 + p.val, h1⟩ : Fin 1024) q) :=
    fun d => blk1_0_apply V c ⟨n, hn⟩ d p q
  have hb1 : ∀ d : Fin 5, (blk1 V c 1 ⟨n, hn⟩ : Vec Ideal S5x50x128 .f32) (ix3 d q jj)
      = (V c main_v3 : S5x50x1024.Idx → EReal) (ix3 d q (⟨n % 8 * 128 + jj.val, h2⟩ : Fin 1024)) :=
    fun d => blk1_1_apply V c ⟨n, hn⟩ d q jj
  have hd : (if n / 8 * 128 + p.val = n % 8 * 128 + jj.val then (1 : EReal) else 0)
      = Cert.Spec.diag (⟨n / 8 * 128 + p.val, h1⟩ : Fin 1024) (⟨n % 8 * 128 + jj.val, h2⟩ : Fin 1024) :=
    if_congr ⟨fun h => Fin.ext h, fun h => congrArg Fin.val h⟩ rfl rfl
  unfold pairTermN
  rw [dif_pos ⟨h1, h2⟩, e8', e9', hd]
  refine congrArg (fun z => Ideal.exp (-(z + _))) (Finset.sum_congr rfl fun d _ => ?_)
  rw [hb0 d, hb1 d]

/-! ## The accumulator along a row block -/

theorem accAt_congr (c : Dev nD) {a b : ℕ} (hab : a = b) (ha : a < cfg1.N) (hb : b < cfg1.N) :
    accAt V c a ha = accAt V c b hb := by
  subst hab; rfl

/-- Within row block ni, after column block j the accumulator holds, at (p, q), the contributions of the
    column blocks 0 … j. -/
theorem acc_row (c : Dev nD) (ni : ℕ) (hni : ni < 8) (p : Fin 128) (q : Fin 50) :
    ∀ (j : ℕ) (hj : j < 8) (h : 8 * ni + j < cfg1.N), accAt V c (8 * ni + j) h (ix2 p q)
      = ∑ b ∈ Finset.range (j + 1), ∑ jj : Fin 128,
          pairTermN (V c main_v2) (V c main_v3) (ni * 128 + p.val) q (b * 128 + jj.val) := by
  intro j
  induction j with
  | zero =>
    intro _ h
    have hm : (8 * ni + 0) % 8 = 0 := by omega
    have e1 : (8 * ni + 0) / 8 = ni := by omega
    have hfirst : accAt V c (8 * ni + 0) h
        = accum (grid1.coords ⟨8 * ni + 0, h⟩) (blk1 V c 0 ⟨8 * ni + 0, h⟩) (blk1 V c 1 ⟨8 * ni + 0, h⟩) (k1_pay2 (F := Ideal)) :=
      accAt_first V c ⟨8 * ni + 0, h⟩ hm
    rw [hfirst, accum_blk V c (8 * ni + 0) h, k1_pay2_apply, zero_add, Finset.sum_range_one, e1, hm]
  | succ k ih =>
    intro hk h
    have hlt : 8 * ni + k < cfg1.N := by omega
    have hm : ¬(8 * ni + (k + 1)) % 8 = 0 := by omega
    have e1 : (8 * ni + (k + 1)) / 8 = ni := by omega
    have e2 : (8 * ni + (k + 1)) % 8 = k + 1 := by omega
    have hnext : accAt V c (8 * ni + (k + 1)) h
        = accum (grid1.coords ⟨8 * ni + (k + 1), h⟩) (blk1 V c 0 ⟨8 * ni + (k + 1), h⟩) (blk1 V c 1 ⟨8 * ni + (k + 1), h⟩)
            (accAt V c (8 * ni + (k + 1) - 1) (Nat.lt_of_le_of_lt (Nat.sub_le _ _) h)) :=
      accAt_next V c ⟨8 * ni + (k + 1), h⟩ hm
    rw [hnext, accum_blk V c (8 * ni + (k + 1)) h,
      accAt_congr V c (show 8 * ni + (k + 1) - 1 = 8 * ni + k by omega) _ hlt, ih (by omega) hlt,
      Finset.sum_range_succ _ (k + 1), e1, e2]

/-- At the last column block of a row block the accumulator holds, at (p, q), the pairwise feature of row
    128 (t / 8) + p, feature q. -/
theorem acc_last (c : Dev nD) (t : Fin cfg1.N) (h7 : t.val % 8 = 7) (p : Fin 128) (q : Fin 50) :
    accAt V c t.val t.isLt (ix2 p q)
      = Cert.Spec.pairFeat (V c main_v2) (V c main_v3) (⟨t.val / 8 * 128 + p.val, by
          have h : t.val < 64 := lt_of_lt_of_eq t.isLt (show cfg1.N = 64 from N_1)
          have := p.isLt; omega⟩ : Fin 1024) q := by
  have h64 : t.val < 64 := lt_of_lt_of_eq t.isLt (show cfg1.N = 64 from N_1)
  have hN : cfg1.N = 64 := N_1
  have e : t.val = 8 * (t.val / 8) + 7 := by omega
  have hlt : 8 * (t.val / 8) + 7 < cfg1.N := by omega
  have hr : t.val / 8 * 128 + p.val < 1024 := by have := p.isLt; omega
  rw [accAt_congr V c e t.isLt hlt, acc_row V c (t.val / 8) (by omega) p q 7 (by omega) hlt]
  exact (Finset.sum_range _).trans
    ((Cert.SumBlocks.sum_blocks_flat
        (fun j : Fin 1024 => pairTermN (V c main_v2) (V c main_v3) (t.val / 8 * 128 + p.val) q j.val)).trans
      (pairFeat_eq_sum (V c main_v2) (V c main_v3) ⟨t.val / 8 * 128 + p.val, hr⟩ q).symm)

/-! ## The result array -/

/-- What a writing point writes back is its block of the pairwise features. -/
theorem flushed1_eq (c : Dev nD) (t : Fin cfg1.N) (hf : (cfg1.win 2).flush t = true) :
    (dat1 (F := Ideal) V c).flushed 2 t
      = ((cfg1.win 2).blk t).view.read (Elt Ideal) (fun y => Cert.Spec.pairFeat (V c main_v2) (V c main_v3) (y 0) (y 1)) := by
  have h7 : t.val % 8 = 7 := (flush1_2 t).mp hf
  have h64 : t.val < 64 := lt_of_lt_of_eq t.isLt (show cfg1.N = 64 from N_1)
  obtain ⟨-, -, -, -, -, -, e6, e7, -⟩ := idx_facts1 t
  show (cfg1.win 2).cut (grid1.coords t) ((dat1 (F := Ideal) V c).after 2 t) = _
  rw [after1_2]
  refine funext fun (y : S128x50.Idx) => ?_
  obtain ⟨p, q, rfl⟩ : ∃ (p : Fin 128) (q : Fin 50), y = ix2 p q := ⟨y 0, y 1, eq_ix2 y⟩
  show accAt V c t.val t.isLt (ix2 p q)
    = Cert.Spec.pairFeat (V c main_v2) (V c main_v3) ((((cfg1.win 2).blk t).view.emb (ix2 p q)) 0) ((((cfg1.win 2).blk t).view.emb (ix2 p q)) 1)
  rw [acc_last V c t h7 p q]
  have hp := p.isLt
  have hq := q.isLt
  have r0 : ((((cfg1.win 2).blk t).view.emb (ix2 p q)) 0 : Fin 1024)
      = (⟨t.val / 8 * 128 + p.val, by omega⟩ : Fin 1024) := Fin.ext (by
    show win1_2.index t (0 : Fin 2) * 128 + 1 * p.val = t.val / 8 * 128 + p.val
    rw [e6]; omega)
  have r1 : ((((cfg1.win 2).blk t).view.emb (ix2 p q)) 1 : Fin 50) = q := Fin.ext (by
    show win1_2.index t (1 : Fin 2) * 50 + 1 * q.val = q.val
    rw [e7]; omega)
  rw [r0, r1]

/-- Every row of the result is in the block of the last point of its row block. -/
theorem cover1 (i : S1024x50.Idx) :
    ∃ t : Fin cfg1.N, (cfg1.win 2).flush t = true ∧ i ∈ ((cfg1.win 2).blk t).view.set := by
  have hN : cfg1.N = 64 := N_1
  have hi0 : (i 0).val < 1024 := (i 0).isLt
  have hi1 : (i 1).val < 50 := (i 1).isLt
  have hlt : 8 * ((i 0).val / 128) + 7 < cfg1.N := by omega
  obtain ⟨-, -, -, -, -, -, e6, e7, -⟩ := idx_facts1 ⟨8 * ((i 0).val / 128) + 7, hlt⟩
  have e6' : win1_2.index ⟨8 * ((i 0).val / 128) + 7, hlt⟩ (0 : Fin 2) = (8 * ((i 0).val / 128) + 7) / 8 := e6
  refine ⟨⟨8 * ((i 0).val / 128) + 7, hlt⟩, (flush1_2 _).mpr (by show (8 * ((i 0).val / 128) + 7) % 8 = 7; omega), ?_⟩
  show i ∈ ((View.whole main_v4).slice (win1_2.rect ⟨8 * ((i 0).val / 128) + 7, hlt⟩)).set
  rw [View.set_slice_whole, Rect.mem_set_unit]
  intro a
  match a with
  | ⟨0, _⟩ =>
    show win1_2.index ⟨8 * ((i 0).val / 128) + 7, hlt⟩ (0 : Fin 2) * 128 ≤ (i 0).val
      ∧ (i 0).val < win1_2.index ⟨8 * ((i 0).val / 128) + 7, hlt⟩ (0 : Fin 2) * 128 + 128
    rw [e6']; omega
  | ⟨1, _⟩ =>
    show win1_2.index ⟨8 * ((i 0).val / 128) + 7, hlt⟩ (1 : Fin 2) * 50 ≤ (i 1).val
      ∧ (i 1).val < win1_2.index ⟨8 * ((i 0).val / 128) + 7, hlt⟩ (1 : Fin 2) * 50 + 50
    rw [e7]; omega

/-- THE RESULT ARRAY after the region: the pairwise features of the two arrays the region finds. -/
theorem pair_final (c : Dev nD) :
    (dat1 (F := Ideal) V c).arrAt 2 cfg1.N = fun y => Cert.Spec.pairFeat (V c main_v2) (V c main_v3) (y 0) (y 1) :=
  (dat1 (F := Ideal) V c).arrAt_eq_of_cover 2 _ (fun t hf => flushed1_eq V c t hf) (fun i => cover1 i)

end

end Cert.KernelIdeal.Hand

end
-- ==== Proof.Act0Value.lean ====
/-
  The first kernel region's result. The array main_v0 : [1024, 250] ends holding the activations
  act = x·W + bias of the three argument arrays as the region finds them: each of the four grid points writes back
  rows 256 t … 256 t + 255, computed from the same rows of x, the whole of W and the whole bias, and the four
  blocks of rows tile the array.
-/
import proofs.«157004_j87720412053850_1_alg».proof.Proof.Region0I
import proofs.«157004_j87720412053850_1_alg».proof.Proof.KPayload
import proofs.«157004_j87720412053850_1_alg».proof.Proof.Spec
import Idealize.ShloMosaic.Lib.Pipeline.Value

set_option maxRecDepth 16384

noncomputable section

namespace Cert.KernelIdeal.Act0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

theorem hz2 : (![0, 0] : Fin 2 → Nat) = fun _ => 0 := funext fun a => by fin_cases a <;> rfl
theorem hz1 : (![0] : Fin 1 → Nat) = fun _ => 0 := funext fun a => by fin_cases a <;> rfl

/-- The activations of three arrays, as an array [1024, 250]. -/
abbrev actArr (a0 : S1024x2048.Idx → EReal) (a1 : S2048x250.Idx → EReal) (a2 : S250.Idx → EReal) :
    S1024x250.Idx → EReal :=
  fun y => Cert.Spec.act a0 a1 a2 (y 0) (y 1)

/-- What the body leaves in the output's buffer, at row p and column q of the block: row p of the block of x against
    column q of W, plus the bias of column q. -/
theorem rowBlock_apply (x0 : Vec Ideal S256x2048 .f32) (x1 : Vec Ideal S2048x250 .f32) (x2 : Vec Ideal S250 .f32)
    (p : Fin 256) (q : Fin 250) :
    rowBlock (F := Ideal) x0 x1 x2 (ix2 p q) = (∑ k : Fin 2048, x0 (ix2 p k) * x1 (ix2 k q)) + x2 (ix1 q) := by
  unfold rowBlock
  rw [View.canon_unit_zero hz2]
  simp only [View.ld_unit_zero (S := S256x2048) hz2, View.ld_unit_zero (S := S2048x250) hz2,
    View.ld_unit_zero (S := S250) hz1]
  exact Pay.k0_pay1_apply x0 x1 x2 p q

/-- The index maps over the four grid points: the blocks of x and of the output move with the point along the rows,
    W and the bias are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The block of x at point t is rows 256 t … 256 t + 255 of x. -/
theorem blk0_0_apply (c : Dev nD) (t : Fin cfg0.N) (p : Fin 256) (k : Fin 2048) (r : Fin 1024)
    (hr : r.val = t.val * 256 + p.val) :
    (blk0 V c 0 t : Vec Ideal S256x2048 .f32) (ix2 p k) = (V c main_arg0 : S1024x2048.Idx → EReal) (ix2 r k) := by
  obtain ⟨e0, e1, -⟩ := idx_facts t
  unfold blk0
  rw [View.read_apply]
  show V c main_arg0 _ = V c main_arg0 _
  refine congrArg (V c main_arg0) (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- The block of W at every point is W. -/
theorem blk0_1_apply (c : Dev nD) (t : Fin cfg0.N) (k : Fin 2048) (q : Fin 250) :
    (blk0 V c 1 t : Vec Ideal S2048x250 .f32) (ix2 k q) = (V c main_arg1 : S2048x250.Idx → EReal) (ix2 k q) := by
  obtain ⟨-, -, e0, e1, -⟩ := idx_facts t
  unfold blk0
  rw [View.read_apply]
  show V c main_arg1 _ = V c main_arg1 _
  refine congrArg (V c main_arg1) (funext fun a => Fin.ext ?_)
  match a with
  | ⟨0, _⟩ => show win0_1.index t (0 : Fin 2) * 2048 + 1 * k.val = k.val; omega
  | ⟨1, _⟩ => show win0_1.index t (1 : Fin 2) * 250 + 1 * q.val = q.val; omega

/-- The block of the bias at every point is the bias. -/
theorem blk0_2_apply (c : Dev nD) (t : Fin cfg0.N) (q : Fin 250) :
    (blk0 V c 2 t : Vec Ideal S250 .f32) (ix1 q) = (V c main_arg2 : S250.Idx → EReal) (ix1 q) := by
  obtain ⟨-, -, -, -, e0, -⟩ := idx_facts t
  unfold blk0
  rw [View.read_apply]
  show V c main_arg2 _ = V c main_arg2 _
  refine congrArg (V c main_arg2) (funext fun a => Fin.ext ?_)
  match a with
  | ⟨0, _⟩ => show win0_2.index t (0 : Fin 1) * 250 + 1 * q.val = q.val; omega

/-- What the body leaves at point t, at row p of the block, is row 256 t + p of the activations. -/
theorem rowBlock_at (c : Dev nD) (t : Fin cfg0.N) (p : Fin 256) (q : Fin 250) (r : Fin 1024)
    (hr : r.val = t.val * 256 + p.val) :
    rowBlock (blk0 V c 0 t) (blk0 V c 1 t) (blk0 V c 2 t) (ix2 p q)
      = actArr (V c main_arg0) (V c main_arg1) (V c main_arg2) (ix2 r q) := by
  refine (rowBlock_apply (blk0 V c 0 t) (blk0 V c 1 t) (blk0 V c 2 t) p q).trans ?_
  show _ = Cert.Spec.act (V c main_arg0) (V c main_arg1) (V c main_arg2) r q
  unfold Cert.Spec.act
  exact congrArg₂ (· + ·)
    (Finset.sum_congr rfl fun k _ => congrArg₂ (· * ·) (blk0_0_apply V c t p k r hr) (blk0_1_apply V c t k q))
    (blk0_2_apply V c t q)

/-- What point t writes back is its block of the activations. -/
theorem flushed_eq (c : Dev nD) (t : Fin cfg0.N) :
    (dat0 (F := Ideal) V c).flushed 3 t
      = ((cfg0.win 3).blk t).view.read (Elt Ideal) (actArr (V c main_arg0) (V c main_arg1) (V c main_arg2)) := by
  obtain ⟨-, -, -, -, -, e0, e1⟩ := idx_facts t
  have ht : t.val < 4 := lt_of_lt_of_eq t.isLt N_0
  show (cfg0.win 3).cut (grid0.coords t) ((dat0 V c).after 3 t) = _
  rw [after0_3]
  funext j
  have hp : (j 0).val < 256 := (j 0).isLt
  have hq : (j 1).val < 250 := (j 1).isLt
  have hx : (cfg0.win 3).xinj (grid0.coords t) j = ix2 (⟨(j 0).val, hp⟩ : Fin 256) (⟨(j 1).val, hq⟩ : Fin 250) :=
    funext fun a => Fin.ext (by match a with | ⟨0, _⟩ => rfl | ⟨1, _⟩ => rfl)
  have he : ((cfg0.win 3).blk t).view.emb j
      = ix2 (⟨t.val * 256 + (j 0).val, by omega⟩ : Fin 1024) (⟨(j 1).val, hq⟩ : Fin 250) :=
    funext fun a => Fin.ext (by
      match a with
      | ⟨0, _⟩ => show win0_3.index t (0 : Fin 2) * 256 + 1 * (j 0).val = t.val * 256 + (j 0).val; omega
      | ⟨1, _⟩ => show win0_3.index t (1 : Fin 2) * 250 + 1 * (j 1).val = (j 1).val; omega)
  rw [View.read_apply, he]
  show rowBlock (blk0 V c 0 t) (blk0 V c 1 t) (blk0 V c 2 t) ((cfg0.win 3).xinj (grid0.coords t) j) = _
  rw [hx]
  exact rowBlock_at V c t _ _ _ rfl

/-- An index of the array is in point t's block iff each coordinate is in the block's range on its axis. -/
theorem mem_blk (t : Fin cfg0.N) (i : S1024x250.Idx) :
    i ∈ ((cfg0.win 3).blk t).view.set
      ↔ ∀ a : Fin 2, win0_3.index t a * S256x250.size a ≤ (i a).val
          ∧ (i a).val < win0_3.index t a * S256x250.size a + S256x250.size a := by
  show i ∈ ((View.whole main_v0).slice (win0_3.rect t)).set ↔ _
  rw [View.set_slice_whole, Rect.mem_set_unit]
  exact Iff.rfl

/-- Row r of the array is in the block of point r / 256: the four blocks of 256 rows tile the 1024 rows. -/
theorem cover (i : S1024x250.Idx) :
    ∃ t : Fin cfg0.N, (cfg0.win 3).flush t = true ∧ i ∈ ((cfg0.win 3).blk t).view.set := by
  have h0 : (i 0).val < 1024 := (i 0).isLt
  have h1 : (i 1).val < 250 := (i 1).isLt
  have hN : cfg0.N = 4 := N_0
  have hlt : (i 0).val / 256 < cfg0.N := by rw [hN]; omega
  obtain ⟨t, ht⟩ : ∃ t : Fin cfg0.N, t.val = (i 0).val / 256 := ⟨⟨_, hlt⟩, rfl⟩
  refine ⟨t, flush0_3 t, ?_⟩
  rw [mem_blk]
  obtain ⟨-, -, -, -, -, e0, e1⟩ := idx_facts t
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 250 ≤ (i 1).val ∧ (i 1).val < win0_3.index t (1 : Fin 2) * 250 + 250
    omega

/-- The first region's result array: the activations of the three argument arrays as the region finds them. -/
theorem act_final (c : Dev nD) :
    (dat0 (F := Ideal) V c).arrAt 3 cfg0.N
      = fun y => Cert.Spec.act (V c main_arg0) (V c main_arg1) (V c main_arg2) (y 0) (y 1) :=
  (dat0 (F := Ideal) V c).arrAt_eq_of_cover 3 (actArr (V c main_arg0) (V c main_arg1) (V c main_arg2))
    (fun t _ => flushed_eq V c t) cover

end Cert.KernelIdeal.Act0

end
-- ==== Proof.Host1Value.lean ====
/-
  The host operations between the two kernel regions, read at an index: the activations [1024, 250], read row-major
  as [1024, 50, 5] (coordinate d of feature k is column 5 * k + d), then transposed to [5, 1024, 50] and to [5, 50, 1024].
-/
import proofs.«157004_j87720412053850_1_alg».proof.Proof.Gen.KernelIdeal
import proofs.«157004_j87720412053850_1_alg».proof.Proof.Spec
import Idealize.ShloMosaic.Lib.Pipeline.Value
import Idealize.ShloMosaic.Lib.ValueIdx

noncomputable section

namespace Cert.KernelIdeal.Host1

open Cert.KernelIdeal Cert.KernelIdeal.Gen Idealize.ShloMosaic Idealize.ShloMosaic.ValueIdx

variable (A0 : (⟨S1024x250, .f32⟩ : BufTy).Contents (Elt Ideal))

/-- The reshape: entry (i, k, d) of [1024, 50, 5] is entry (i, 5 * k + d) of [1024, 250]. -/
theorem cast_apply (i : Fin 1024) (k : Fin 50) (d : Fin 5) :
    shapeCast S1024x50x5 A0 shapeCasts_S1024x250_S1024x50x5 (ix3 i k d) = A0 (ix2 i (Cert.Spec.col k d)) := by
  refine shapeCast_apply A0 shapeCasts_S1024x250_S1024x50x5 (ix3 i k d) (ix2 i (Cert.Spec.col k d)) ?_
  rewrite [Shape.rowMajor_val_two, Shape.rowMajor_val_three]
  have hi := i.isLt; have hk := k.isLt; have hd := d.isLt
  show i.val * 250 + (k.val * 5 + d.val) = (i.val * 50 + k.val) * 5 + d.val
  omega

/-- The first transpose, [5, 1024, 50]: entry (d, i, k) is the activation of row i in column 5 * k + d. -/
theorem rows_apply (i : Fin 1024) (k : Fin 50) (d : Fin 5) :
    transpose S5x1024x50 [2, 0, 1] (shapeCast S1024x50x5 A0 shapeCasts_S1024x250_S1024x50x5)
        transposes_S1024x50x5_S5x1024x50_2_0_1 (ix3 d i k)
      = A0 (ix2 i (Cert.Spec.col k d)) :=
  (transpose_apply [2, 0, 1] (shapeCast S1024x50x5 A0 shapeCasts_S1024x250_S1024x50x5)
    transposes_S1024x50x5_S5x1024x50_2_0_1 (ix3 d i k) (ix3 i k d) (fun b => match b with
      | ⟨0, _⟩ => rfl
      | ⟨1, _⟩ => rfl
      | ⟨2, _⟩ => rfl)).trans (cast_apply A0 i k d)

/-- The second transpose, [5, 50, 1024]: entry (d, k, j) is the activation of row j in column 5 * k + d. -/
theorem cols_apply (j : Fin 1024) (k : Fin 50) (d : Fin 5) :
    transpose S5x50x1024 [2, 1, 0] (shapeCast S1024x50x5 A0 shapeCasts_S1024x250_S1024x50x5)
        transposes_S1024x50x5_S5x50x1024_2_1_0 (ix3 d k j)
      = A0 (ix2 j (Cert.Spec.col k d)) :=
  (transpose_apply [2, 1, 0] (shapeCast S1024x50x5 A0 shapeCasts_S1024x250_S1024x50x5)
    transposes_S1024x50x5_S5x50x1024_2_1_0 (ix3 d k j) (ix3 j k d) (fun b => match b with
      | ⟨0, _⟩ => rfl
      | ⟨1, _⟩ => rfl
      | ⟨2, _⟩ => rfl)).trans (cast_apply A0 j k d)

end Cert.KernelIdeal.Host1

end
-- ==== Proof.KernelValue.lean ====
/-
  The kernel program's result array, at the ideal values.

  The first region leaves main_v0 at the activations act = x·W + bias of the argument arrays. The host then reads it
  row-major as [1024, 50, 5] and transposes it to P : [5, 1024, 50] and Q : [5, 50, 1024], so that P d i k and Q d k j
  are the activations of rows i and j in column 5 * k + d. The second region leaves main_v4 at the pairwise features
  of P and Q, which are therefore the features of the specification; the last host operation joins x and the
  features along the columns. No item writes x, so the x that is joined is the argument as launched.
-/
import proofs.«157004_j87720412053850_1_alg».proof.Proof.RunI
import proofs.«157004_j87720412053850_1_alg».proof.Proof.Act0Value
import proofs.«157004_j87720412053850_1_alg».proof.Proof.Host1Value
import proofs.«157004_j87720412053850_1_alg».proof.Proof.PairSpec
import proofs.«157004_j87720412053850_1_alg».proof.Proof.Spec

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-- After the first region main_v0 holds the activations of the argument arrays as launched. -/
theorem v0_eq (c : Dev nD) :
    W1 m ρ c (Proc.devRef .tc main_v0)
      = fun y => Cert.Spec.act (m ((c : Thread nD τ).loc main_arg0)) (m ((c : Thread nD τ).loc main_arg1))
          (m ((c : Thread nD τ).loc main_arg2)) (y 0) (y 1) :=
  (W1_arr m ρ c 3).trans (Act0.act_final (Ve0 m ρ) c)

/-- The second region finds main_v2 at the first transpose of the reshaped activations, -/
theorem v2_eq (c : Dev nD) :
    Ve1 m ρ c main_v2
      = transpose S5x1024x50 [2, 0, 1]
          (shapeCast S1024x50x5 (W1 m ρ c (Proc.devRef .tc main_v0)) shapeCasts_S1024x250_S1024x50x5)
          transposes_S1024x50x5_S5x1024x50_2_0_1 := by
  show StableHlo.after hostOps1 (W1 m ρ c) (Proc.devRef .tc main_v2) = _
  after_results <;> rfl

/-- and main_v3 at the second. -/
theorem v3_eq (c : Dev nD) :
    Ve1 m ρ c main_v3
      = transpose S5x50x1024 [2, 1, 0]
          (shapeCast S1024x50x5 (W1 m ρ c (Proc.devRef .tc main_v0)) shapeCasts_S1024x250_S1024x50x5)
          transposes_S1024x50x5_S5x50x1024_2_1_0 := by
  show StableHlo.after hostOps1 (W1 m ρ c) (Proc.devRef .tc main_v3) = _
  after_results <;> rfl

/-- Entry (d, i, k) of main_v2 is the activation of row i in column 5 * k + d. -/
theorem rows_eq (c : Dev nD) (i : Fin 1024) (k : Fin 50) (d : Fin 5) :
    Ve1 m ρ c main_v2 (ix3 d i k)
      = Cert.Spec.act (m ((c : Thread nD τ).loc main_arg0)) (m ((c : Thread nD τ).loc main_arg1))
          (m ((c : Thread nD τ).loc main_arg2)) i (Cert.Spec.col k d) := by
  rw [v2_eq]
  refine (Host1.rows_apply _ i k d).trans ?_
  rw [v0_eq]
  rfl

/-- Entry (d, k, j) of main_v3 is the activation of row j in column 5 * k + d. -/
theorem cols_eq (c : Dev nD) (j : Fin 1024) (k : Fin 50) (d : Fin 5) :
    Ve1 m ρ c main_v3 (ix3 d k j)
      = Cert.Spec.act (m ((c : Thread nD τ).loc main_arg0)) (m ((c : Thread nD τ).loc main_arg1))
          (m ((c : Thread nD τ).loc main_arg2)) j (Cert.Spec.col k d) := by
  rw [v3_eq]
  refine (Host1.cols_apply _ j k d).trans ?_
  rw [v0_eq]
  rfl

/-- If the second region leaves main_v4 at the pairwise features of what it finds in main_v2 and main_v3, then
    main_v4 ends at the features of the specification. -/
theorem v4_eq (hpair : ∀ c, (dat1 (F := Ideal) (Ve1 m ρ) c).arrAt 2 cfg1.N
      = fun y => Cert.Spec.pairFeat (Ve1 m ρ c main_v2) (Ve1 m ρ c main_v3) (y 0) (y 1)) (c : Dev nD) :
    W3 m ρ c (Proc.devRef .tc main_v4)
      = Cert.Spec.featArr (m ((c : Thread nD τ).loc main_arg0)) (m ((c : Thread nD τ).loc main_arg1))
          (m ((c : Thread nD τ).loc main_arg2)) := by
  refine ((W3_arr m ρ c 2).trans (hpair c)).trans ?_
  funext y
  obtain ⟨i, k, rfl⟩ : ∃ (i : Fin 1024) (k : Fin 50), y = ix2 i k := ⟨y 0, y 1, eq_ix2 y⟩
  show Cert.Spec.pairFeat (Ve1 m ρ c main_v2) (Ve1 m ρ c main_v3) i k
      = Cert.Spec.feat (Cert.Spec.act (m ((c : Thread nD τ).loc main_arg0)) (m ((c : Thread nD τ).loc main_arg1))
          (m ((c : Thread nD τ).loc main_arg2))) i k
  unfold Cert.Spec.pairFeat Cert.Spec.feat Cert.Spec.term Cert.Spec.l1
  refine Finset.sum_congr rfl fun j _ => ?_
  refine congrArg (fun t => Ideal.exp (-(t + Cert.Spec.diag i j))) (Finset.sum_congr rfl fun d _ => ?_)
  rw [rows_eq m ρ c i k d, cols_eq m ρ c j k d]

/-- No item before the last host operation writes x. -/
theorem W3_main_arg0 (c : Dev nD) :
    W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) :=
        StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg0) :=
        (W1_arr m ρ c 0).trans (((dat0 (Ve0 m ρ) c).arrAt_in 0 rfl _).trans (A_eq0 (Ve0 m ρ) c 0))
    _ = m ((c : Thread nD τ).loc main_arg0) := rfl

/-- The kernel program's result: x joined, along the columns, with the features of the specification. -/
theorem v5_eq (hpair : ∀ c, (dat1 (F := Ideal) (Ve1 m ρ) c).arrAt 2 cfg1.N
      = fun y => Cert.Spec.pairFeat (Ve1 m ρ c main_v2) (Ve1 m ρ c main_v3) (y 0) (y 1)) (c : Dev nD) :
    W4 m ρ c (Proc.devRef .tc main_v5)
      = concatenate S1024x2098 1 [⟨S1024x2048, m ((c : Thread nD τ).loc main_arg0)⟩,
          ⟨S1024x50, Cert.Spec.featArr (m ((c : Thread nD τ).loc main_arg0)) (m ((c : Thread nD τ).loc main_arg1))
            (m ((c : Thread nD τ).loc main_arg2))⟩] concatenates_S1024x2048_S1024x50_S1024x2098_d1 := by
  show StableHlo.after hostOps2 (W3 m ρ c) (Proc.devRef .tc main_v5) = _
  after_results
  rw [W3_main_arg0, v4_eq m ρ hpair c]

end Cert.KernelIdeal.KValue

end
-- ==== Proof.lean ====
/-
  Minibatch discrimination: the kernel against its reference, over the extended reals.

  Both programs take x : [1024, 2048], W : [2048, 250] and bias : [250], form the activations act = x·W + bias, read
  them as 50 features of 5 coordinates each, and return x with 50 more columns appended: for row i and feature k the
  sum over ALL rows j of exp (-( (∑ d, |act i (5k+d) - act j (5k+d)|) + [i = j] )) (Proof/Spec.lean).

  The reference computes this with whole-array operations. The kernel computes act in one region, four blocks of 256
  rows; re-lays it as [5, 1024, 50] and [5, 50, 1024]; and in a second region, on a grid of 8 × 8 blocks of 128 rows
  by 128 rows, accumulates each column block's 128 contributions into an accumulator that is zeroed at the first
  column block of a row block and written out at the last. At the ideal instance the two agree exactly: a change of
  float format is the identity, the matrix unit's product into a zero accumulator is the plain sum, 0 - t is -t, and
  the only law used between the two arrangements is that a finite sum over the extended reals may be regrouped (the
  1024 rows j as 8 blocks of 128, accumulated left to right from zero) — an additive commutative monoid's law, which
  needs no finiteness of the inputs. So the precondition is never opened.

  The three frames: each kernel region runs at every grid point from the invariant "the accumulator holds what the
  point before left" (Proof/Region0*.lean, Proof/Region1*.lean), the regions and the host operations between them
  compose into the run of @main with every buffer's final contents named (Proof/Run*.lean), once for the program as
  printed (at the word level) and once for its idealization; no item writes an argument array. The reference's frame is
  its run with the result dropped. The idealization rewrote nothing, so there is nothing to preserve.
-/
import proofs.«157004_j87720412053850_1_alg».proof.Defs
import proofs.«157004_j87720412053850_1_alg».proof.Proof.Gen.Pre_finite_inputs
import proofs.«157004_j87720412053850_1_alg».proof.Proof.RunI
import proofs.«157004_j87720412053850_1_alg».proof.Proof.RunK
import proofs.«157004_j87720412053850_1_alg».proof.Proof.RefValue
import proofs.«157004_j87720412053850_1_alg».proof.Proof.PairValue
import proofs.«157004_j87720412053850_1_alg».proof.Proof.KernelValue

noncomputable section

namespace Cert.Proof

open Idealize.ShloMosaic Idealize.SL.Sem

/-- The program as printed runs to the end and leaves its three argument arrays as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with x followed by the 50 minibatch
    features of Proof/Spec.lean: the kernel's last buffer contents read at its result (the two regions' arrays carried
    through the host operations), the reference's run read one operation at a time. -/
theorem algebraic : Cert.algebraic_KernelIdeal_ReferenceIdeal := by
  intro m ρ m' ρ' _ hagree
  refine ⟨_, (θ_run Cert.KernelIdeal.defs _ _).mono (fun r h c =>
      ⟨(h c _ (Cert.KernelIdeal.Hand.mem_uc Cert.KernelIdeal.main_v5 (by decide))).trans (Cert.KernelIdeal.KValue.v5_eq m ρ (fun c => Cert.KernelIdeal.Hand.pair_final (Cert.KernelIdeal.Hand.Ve1 m ρ) c) c),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c)⟩)
      (Cert.KernelIdeal.Hand.run (F := Ideal) m ρ), ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
